-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S100000x64 : Shape := ⟨2, ![100000, 64]⟩
abbrev S3200000x1 : Shape := ⟨2, ![3200000, 1]⟩
abbrev S2x3200000 : Shape := ⟨2, ![2, 3200000]⟩
abbrev S64x1 : Shape := ⟨2, ![64, 1]⟩
abbrev S64x64 : Shape := ⟨2, ![64, 64]⟩
abbrev S64x192 : Shape := ⟨2, ![64, 192]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3200000x1 : S_.BroadcastsInDim S3200000x1 (![] : Fin 0 → Fin S3200000x1.rank)
  reducesTo_S3200000x1_S_d0_1 : S3200000x1.ReducesTo [0, 1] S_
  bcast_S_S64x1 : S_.BroadcastsInDim S64x1 (![] : Fin 0 → Fin S64x1.rank)
  reducesTo_S64x1_S_d0_1 : S64x1.ReducesTo [0, 1] S_
  bcast_S_S64x64 : S_.BroadcastsInDim S64x64 (![] : Fin 0 → Fin S64x64.rank)
  reducesTo_S64x64_S_d0_1 : S64x64.ReducesTo [0, 1] S_
  bcast_S_S64x192 : S_.BroadcastsInDim S64x192 (![] : Fin 0 → Fin S64x192.rank)
  reducesTo_S64x192_S_d0_1 : S64x192.ReducesTo [0, 1] S_

variable [Facts]

def fn_part2 {F : FTy → Type} [FloatOps F] (main_arg8 : FVec F S64x192 .f32) (main_arg9 : FVec F S64x64 .f32) (main_v33 : IVec S_ 1) : IVec S_ 1 :=
  let main_v34 : FVec F S64x192 .f32 := Host.absf main_arg8
  let main_cst_12 : FVec F S_ .f32 := constant S_ .f32 0x7F800000#32
  let main_v35 : FVec F S64x192 .f32 := broadcastInDim S64x192 ![] bcast_S_S64x192 main_cst_12
  let main_v36 : IVec S64x192 1 := cmpf .olt main_v34 main_v35
  let main_c_13 : IVec S_ 1 := constantI S_ 1 1#1
  let main_v37 : IVec S_ 1 := (fun x v => Host.reduce IntOp.andi x v reducesTo_S64x192_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64x1 .f32) (main_arg8 : FVec F S64x192 .f32) (main_arg9 : FVec F S64x64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_arg9 main_v33

def fn {F : FTy → Type} [FloatOps F] (main_arg0 : FVec F S100000x1 .f32) (main_arg1 : FVec F S100000x64 .f32) (main_arg2 : FVec F S3200000x1 .f32) (main_arg3 : IVec S2x3200000 32) (main_arg4 : FVec F S64x1 .f32) (main_arg5 : FVec F S64x64 .f32) (main_arg6 : FVec F S64x64 .f32) (main_arg7 : FVec F S64x1 .f32) (main_arg8 : FVec F S64x192 .f32) (main_arg9 : FVec F S64x64 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3200000x1 .f32 := Host.absf main_arg2
  let main_cst_2 : FVec F S_ .f32 := constant S_ .f32 0x7F800000#32
  let main_v10 : FVec F S3200000x1 .f32 := broadcastInDim S3200000x1 ![] bcast_S_S3200000x1 main_cst_2
  let main_v11 : IVec S3200000x1 1 := cmpf .olt main_v9 main_v10
  let main_c_3 : IVec S_ 1 := constantI S_ 1 1#1
  let main_v12 : IVec S_ 1 := (fun x v => Host.reduce IntOp.andi x v reducesTo_S3200000x1_S_d0_1 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_arg6 main_arg7 main_arg8 main_arg9 main_v13 main_v16
-- ==== Kernel.lean ====
abbrev S100000x1 : Shape := ⟨2, ![100000, 1]⟩
abbrev S100000x64 : Shape := ⟨2, ![100000, 64]⟩
abbrev S3200000x1 : Shape := ⟨2, ![3200000, 1]⟩
abbrev S2x3200000 : Shape := ⟨2, ![2, 3200000]⟩
abbrev S64x1 : Shape := ⟨2, ![64, 1]⟩
abbrev S64x64 : Shape := ⟨2, ![64, 64]⟩
abbrev S64x192 : Shape := ⟨2, ![64, 192]⟩
abbrev S1x3200000 : Shape := ⟨2, ![1, 3200000]⟩
abbrev S3200000 : Shape := ⟨1, ![3200000]⟩
abbrev S_ : Shape := ⟨0, ![]⟩
abbrev S3200000x64 : Shape := ⟨2, ![3200000, 64]⟩
abbrev S1x64 : Shape := ⟨2, ![1, 64]⟩
abbrev S4000x1 : Shape := ⟨2, ![4000, 1]⟩
abbrev S4000x64 : Shape := ⟨2, ![4000, 64]⟩
abbrev S4000x192 : Shape := ⟨2, ![4000, 192]⟩
abbrev S192x64 : Shape := ⟨2, ![192, 64]⟩

abbrev nBuf : Space → Nat
  | .hbm => 57
  | .vmem => 16
  | .smem => 0
  | _ => 0

abbrev bufTy : (tb : Table) → Fin (tcTables nBuf tb) → BufTy
  | .hbm, ⟨0, _⟩ => ⟨S100000x1, .f32⟩
  | .hbm, ⟨1, _⟩ => ⟨S100000x64, .f32⟩
  | .hbm, ⟨2, _⟩ => ⟨S3200000x1, .f32⟩
  | .hbm, ⟨3, _⟩ => ⟨S2x3200000, .i32⟩
  | .hbm, ⟨4, _⟩ => ⟨S64x1, .f32⟩
  | .hbm, ⟨5, _⟩ => ⟨S64x64, .f32⟩
  | .hbm, ⟨6, _⟩ => ⟨S64x64, .f32⟩
  | .hbm, ⟨7, _⟩ => ⟨S64x1, .f32⟩
  | .hbm, ⟨8, _⟩ => ⟨S64x192, .f32⟩
  | .hbm, ⟨9, _⟩ => ⟨S64x64, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x64, .f32⟩
  | .hbm, ⟨23, _⟩ => ⟨S_, .f32⟩
  | .hbm, ⟨24, _⟩ => ⟨S100000x64, .f32⟩
  | .hbm, ⟨25, _⟩ => ⟨S3200000x1, .i32⟩
  | .hbm, ⟨26, _⟩ => ⟨S100000x64, .f32⟩
  | .hbm, ⟨27, _⟩ => ⟨S_, .f32⟩
  | .hbm, ⟨28, _⟩ => ⟨S3200000x1, .f32⟩
  | .hbm, ⟨29, _⟩ => ⟨S3200000x1, .f32⟩
  | .hbm, ⟨30, _⟩ => ⟨S3200000x1, .f32⟩
  | .hbm, ⟨31, _⟩ => ⟨S_, .f32⟩
  | .hbm, ⟨32, _⟩ => ⟨S3200000x1, .f32⟩
  | .hbm, ⟨33, _⟩ => ⟨S3200000x1, .f32⟩
  | .hbm, ⟨34, _⟩ => ⟨S_, .f32⟩
  | .hbm, ⟨35, _⟩ => ⟨S100000x1, .f32⟩
  | .hbm, ⟨36, _⟩ => ⟨S3200000x1, .i32⟩
  | .hbm, ⟨37, _⟩ => ⟨S100000x1, .f32⟩
  | .hbm, ⟨38, _⟩ => ⟨S_, .f32⟩
  | .hbm, ⟨39, _⟩ => ⟨S100000x1, .f32⟩
  | .hbm, ⟨40, _⟩ => ⟨S3200000x1, .i32⟩
  | .hbm, ⟨41, _⟩ => ⟨S100000x1, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S1x64, .f32⟩
  | .hbm, ⟨46, _⟩ => ⟨S64x1, .f32⟩
  | .hbm, ⟨47, _⟩ => ⟨S_, .f32⟩
  | .hbm, ⟨48, _⟩ => ⟨S64x1, .f32⟩
  | .hbm, ⟨49, _⟩ => ⟨S64x1, .f32⟩
  | .hbm, ⟨50, _⟩ => ⟨S1x64, .f32⟩
  | .hbm, ⟨51, _⟩ => ⟨S64x64, .f32⟩
  | .hbm, ⟨52, _⟩ => ⟨S1x64, .f32⟩
  | .hbm, ⟨53, _⟩ => ⟨S64x64, .f32⟩
  | .hbm, ⟨54, _⟩ => ⟨S1x64, .f32⟩
  | .hbm, ⟨55, _⟩ => ⟨S1x64, .f32⟩
  | .hbm, ⟨56, _⟩ => ⟨S100000x64, .f32⟩
  | .local _ .vmem, ⟨0, _⟩ => ⟨S4000x1, .f32⟩
  | .local _ .vmem, ⟨1, _⟩ => ⟨S4000x1, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S4000x1, .f32⟩
  | .local _ .vmem, ⟨7, _⟩ => ⟨S4000x1, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S1x64, .f32⟩
  | .local _ .vmem, ⟨12, _⟩ => ⟨S64x192, .f32⟩
  | .local _ .vmem, ⟨13, _⟩ => ⟨S64x64, .f32⟩
  | .local _ .vmem, ⟨14, _⟩ => ⟨S4000x64, .f32⟩
  | .local _ .vmem, ⟨15, _⟩ => ⟨S4000x64, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_call1_cst : Ref sig .tc := ⟨.hbm, 31, rfl⟩
abbrev main_call1_v0 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call3_cst : Ref sig .tc := ⟨.hbm, 47, rfl⟩
abbrev main_call3_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S_S64x1 : S_.BroadcastsInDim S64x1 (![] : Fin 0 → Fin S64x1.rank)
  transposes_S64x1_S1x64_1_0 : S64x1.Transposes [1, 0] S1x64
  transposes_S64x64_S64x64_1_0 : S64x64.Transposes [1, 0] S64x64
  inb_S4000x1_S4000x1_0_0 : ∀ a, (![0, 0] : Fin 2 → Nat) a + S4000x1.size a ≤ S4000x1.size a
  h_S4000x1 : 0 < S4000x1.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4000x1_S4000x64 : S4000x1.Broadcasts S4000x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S4000x1_S4000x1 : S4000x1.ShapeCasts S4000x1
  concatenates_S4000x64_S4000x64_S4000x64_S4000x192_d1 : Shape.Concatenates [S4000x64, S4000x64, S4000x64] S4000x192 1
  inb_S64x192_S64x192_0_0 : ∀ a, (![0, 0] : Fin 2 → Nat) a + S64x192.size a ≤ S64x192.size a
  h_S64x192 : 0 < S64x192.numel
  transposes_S64x192_p1_0_S192x64 : S64x192.Transposes [1, 0] S192x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000x1_S3200000x1_S3200000x1_1_0_0_1_wf : ScatterDims.WF S100000x1 S3200000x1 S3200000x1 [1] [0] [0] 1
  dot_S1x64_S64x64_S1x64_1_0_0_1_n_n_wf : DotDims.WF S1x64 S64x64 S1x64 [1] [0] [0] [1] [] []
  dot_S4000x64_S64x64_S4000x64_1_0_0_1_n_n_wf : DotDims.WF S4000x64 S64x64 S4000x64 [1] [0] [0] [1] [] []
  dot_S4000x192_S192x64_S4000x64_1_0_0_1_n_n_wf : DotDims.WF S4000x192 S192x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .f32 = 32 ∨ (Rect.block (s := S100000x1) S4000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x192.size a ≤ S64x192.size a
  hwx0_8 : ∀ i : grid0.Coords, EltTy.bits .f32 = 32 ∨ (Rect.block (s := S64x192) S64x192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S100000x64.size a
  hwx0_10 : ∀ i : grid0.Coords, EltTy.bits .f32 = 32 ∨ (Rect.block (s := S100000x64) S4000x64.size (cc0_transform_10 i) (hinb0_10 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x192_S192x64_S4000x64_1_0_0_1_n_n : DotDims S4000x192 S192x64 S4000x64 where
  lhsContracting := [1]
  rhsContracting := [0]
  lhsNonContracting := [0]
  rhsNonContracting := [1]
  lhsBatch := []
  rhsBatch := []
  wf := dot_S4000x192_S192x64_S4000x64_1_0_0_1_n_n_wf

abbrev win0_0 : Pipeline.Window sig grid0 :=
  Pipeline.Window.ofSpec (Memref.whole main_arg0) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S4000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x1 : Shape := ⟨2, ![100000, 1]⟩
abbrev S100000x64 : Shape := ⟨2, ![100000, 64]⟩
abbrev S3200000x1 : Shape := ⟨2, ![3200000, 1]⟩
abbrev S2x3200000 : Shape := ⟨2, ![2, 3200000]⟩
abbrev S64x1 : Shape := ⟨2, ![64, 1]⟩
abbrev S64x64 : Shape := ⟨2, ![64, 64]⟩
abbrev S64x192 : Shape := ⟨2, ![64, 192]⟩
abbrev S1x3200000 : Shape := ⟨2, ![1, 3200000]⟩
abbrev S3200000 : Shape := ⟨1, ![3200000]⟩
abbrev S1x64 : Shape := ⟨2, ![1, 64]⟩
abbrev S_ : Shape := ⟨0, ![]⟩
abbrev S3200000x64 : Shape := ⟨2, ![3200000, 64]⟩
abbrev S100000x192 : Shape := ⟨2, ![100000, 192]⟩
abbrev S192x64 : Shape := ⟨2, ![192, 64]⟩

abbrev nBuf : Space → Nat
  | .hbm => 53
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S100000x64, .f32⟩
  | .hbm, ⟨2, _⟩ => ⟨S3200000x1, .f32⟩
  | .hbm, ⟨3, _⟩ => ⟨S2x3200000, .i32⟩
  | .hbm, ⟨4, _⟩ => ⟨S64x1, .f32⟩
  | .hbm, ⟨5, _⟩ => ⟨S64x64, .f32⟩
  | .hbm, ⟨6, _⟩ => ⟨S64x64, .f32⟩
  | .hbm, ⟨7, _⟩ => ⟨S64x1, .f32⟩
  | .hbm, ⟨8, _⟩ => ⟨S64x192, .f32⟩
  | .hbm, ⟨9, _⟩ => ⟨S64x64, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S1x64, .f32⟩
  | .hbm, ⟨15, _⟩ => ⟨S100000x64, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x64, .f32⟩
  | .hbm, ⟨25, _⟩ => ⟨S_, .f32⟩
  | .hbm, ⟨26, _⟩ => ⟨S100000x64, .f32⟩
  | .hbm, ⟨27, _⟩ => ⟨S3200000x1, .i32⟩
  | .hbm, ⟨28, _⟩ => ⟨S100000x64, .f32⟩
  | .hbm, ⟨29, _⟩ => ⟨S64x64, .f32⟩
  | .hbm, ⟨30, _⟩ => ⟨S100000x64, .f32⟩
  | .hbm, ⟨31, _⟩ => ⟨S1x64, .f32⟩
  | .hbm, ⟨32, _⟩ => ⟨S3200000x64, .f32⟩
  | .hbm, ⟨33, _⟩ => ⟨S_, .f32⟩
  | .hbm, ⟨34, _⟩ => ⟨S3200000x64, .f32⟩
  | .hbm, ⟨35, _⟩ => ⟨S3200000x64, .f32⟩
  | .hbm, ⟨36, _⟩ => ⟨S_, .f32⟩
  | .hbm, ⟨37, _⟩ => ⟨S100000x64, .f32⟩
  | .hbm, ⟨38, _⟩ => ⟨S3200000x1, .i32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S100000x192, .f32⟩
  | .hbm, ⟨43, _⟩ => ⟨S192x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S64x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call2_cst : Ref sig .tc := ⟨.hbm, 50, rfl⟩
abbrev main_call2_v0 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S64x1_S1x64_1_0 : S64x1.Transposes [1, 0] S1x64
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  transposes_S64x64_S64x64_1_0 : S64x64.Transposes [1, 0] S64x64
  bcast_S_S3200000x64 : S_.BroadcastsInDim S3200000x64 (![] : Fin 0 → Fin S3200000x64.rank)
  concatenates_S100000x64_S100000x64_S100000x64_S100000x192_d1 : Shape.Concatenates [S100000x64, S100000x64, S100000x64] S100000x192 1
  transposes_S64x192_S192x64_1_0 : S64x192.Transposes [1, 0] S192x64
  dot_S100000x1_S1x64_S100000x64_1_0_0_1_n_n_wf : DotDims.WF S100000x1 S1x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S3200000x1_S1x64_S3200000x64_1_0_0_1_n_n_wf : DotDims.WF S3200000x1 S1x64 S3200000x64 [1] [0] [0] [1] [] []
  dot_S100000x192_S192x64_S100000x64_1_0_0_1_n_n_wf : DotDims.WF S100000x192 S192x64 S100000x64 [1] [0] [0] [1] [] []

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S3200000x1_S1x64_S3200000x64_1_0_0_1_n_n : DotDims S3200000x1 S1x64 S3200000x64 where
  lhsContracting := [1]
  rhsContracting := [0]
  lhsNonContracting := [0]
  rhsNonContracting := [1]
  lhsBatch := []
  rhsBatch := []
  wf := dot_S3200000x1_S1x64_S3200000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.Finite.lean ====
/-
  Finite inputs are real numbers.

  The precondition compares, for every float argument x, |x| = max x (-x) against +∞ elementwise, takes the
  conjunction over all entries, and conjoins the nine results. Over the extended reals, |x| < ⊤ excludes both
  x = ⊤ (|⊤| = ⊤) and x = ⊥ (|⊥| = max ⊥ ⊤ = ⊤), so x is the image of a real number. This module opens that
  fact for three of the arguments: the 3200000×1 one and the 64×64 and 64×1 ones in positions 6 and 7.
-/
import proofs.«179258_j13597866459920_2_alg».proof.Pre_finite_inputs
import Idealize.ShloMosaic.PureOps.Ideal
import Idealize.ShloMosaic.Lib.ReduceAll

namespace Cert.Proof.Finite
open Idealize.ShloMosaic
open Cert.Pre_finite_inputs (S_)

/-- The f32 pattern with all-ones exponent, zero fraction and sign 0 denotes +∞. -/
theorem ofBits_inf : Ideal.ofBits .f32 0x7F800000#32 = (⊤ : EReal) := by
  simp [Ideal.ofBits, Ideal.ieee]

/-- An extended real whose absolute value max x (-x) is strictly below +∞ is a real number:
    at x = ⊥ and at x = ⊤ the absolute value is ⊤, which is not below ⊤. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- Elementwise: where the comparison |x| < (+∞ broadcast to the shape) holds at index i, the entry x i is real.
    The broadcast of a constant scalar reads that constant at every index, by definition. -/
theorem real_of_cmp {S : Shape} (hb : S_.BroadcastsInDim S (![] : Fin 0 → Fin S.rank))
    (x : FVec Ideal S .f32) (i : S.Idx)
    (h : cmpf .olt (Host.absf x) (broadcastInDim S ![] hb (constant S_ .f32 0x7F800000#32)) i = 1#1) :
    ∃ r : ℝ, x i = (r : EReal) :=
  real_of_abs_lt_top (x i) h

/-- The rank-0 shape has exactly one index. -/
local instance : Subsingleton S_.Idx := ⟨fun a b => funext fun d => d.elim0⟩

/-- A conjunction of two one-bit scalars that is 1 has both conjuncts 1. -/
theorem andi_one {x y : IVec S_ 1} {j : S_.Idx} (h : andi x y j = 1#1) : x j = 1#1 ∧ y j = 1#1 :=
  IntOp.andi_eq_one.1 h

/-- Whole array: if the conjunction over all entries of |x| < +∞ is 1, every entry of x is real.
    The index i stays symbolic; nothing ranges over the index type. -/
theorem all_real {S : Shape} {axes : List (Fin S.rank)} (hb : S_.BroadcastsInDim S (![] : Fin 0 → Fin S.rank))
    (hr : S.ReducesTo axes S_) (hu : 0 < S_.numel) (x : FVec Ideal S .f32) (init : IVec S_ 1) (j : S_.Idx)
    (h : Host.reduce IntOp.andi
      (cmpf .olt (Host.absf x) (broadcastInDim S ![] hb (constant S_ .f32 0x7F800000#32))) init hr hu j = 1#1)
    (i : S.Idx) : ∃ r : ℝ, x i = (r : EReal) :=
  real_of_cmp hb x i (Host.reduce_andi_all _ init hr hu j h i)

/-- Under the precondition, arguments 2, 6 and 7 hold only real numbers. The precondition's value is a left-nested
    conjunction ((((((((c0 ∧ c1) ∧ c2) ∧ c4) ∧ c5) ∧ c6) ∧ c7) ∧ c8) ∧ c9); peel it from the outside and keep
    c7, c6 and c2. -/
theorem reals_of_pre [hP : Cert.Pre_finite_inputs.Facts]
    (a0 : FVec Ideal Cert.Pre_finite_inputs.S100000x1 .f32) (a1 : FVec Ideal Cert.Pre_finite_inputs.S100000x64 .f32)
    (a2 : FVec Ideal Cert.Pre_finite_inputs.S3200000x1 .f32) (a3 : IVec Cert.Pre_finite_inputs.S2x3200000 32)
    (a4 : FVec Ideal Cert.Pre_finite_inputs.S64x1 .f32) (a5 : FVec Ideal Cert.Pre_finite_inputs.S64x64 .f32)
    (a6 : FVec Ideal Cert.Pre_finite_inputs.S64x64 .f32) (a7 : FVec Ideal Cert.Pre_finite_inputs.S64x1 .f32)
    (a8 : FVec Ideal Cert.Pre_finite_inputs.S64x192 .f32) (a9 : FVec Ideal Cert.Pre_finite_inputs.S64x64 .f32)
    (h : Cert.Pre_finite_inputs.fn (F := Ideal) a0 a1 a2 a3 a4 a5 a6 a7 a8 a9 = fun _ => 1#1) :
    (∀ i, ∃ r : ℝ, a2 i = (r : EReal)) ∧ (∀ i, ∃ r : ℝ, a6 i = (r : EReal)) ∧ (∀ i, ∃ r : ℝ, a7 i = (r : EReal)) := by
  have h0 := congrFun h (fun a => a.elim0)
  dsimp only [Cert.Pre_finite_inputs.fn, Cert.Pre_finite_inputs.fn_part1, Cert.Pre_finite_inputs.fn_part2] at h0
  obtain ⟨h38, -⟩ := andi_one h0
  obtain ⟨h33, -⟩ := andi_one h38
  obtain ⟨h28, h32⟩ := andi_one h33
  obtain ⟨h23, h27⟩ := andi_one h28
  obtain ⟨h18, -⟩ := andi_one h23
  obtain ⟨h13, -⟩ := andi_one h18
  obtain ⟨-, h12⟩ := andi_one h13
  exact ⟨all_real _ _ _ a2 _ _ h12, all_real _ _ _ a6 _ _ h27, all_real _ _ _ a7 _ _ h32⟩

end Cert.Proof.Finite
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.Spec.lean ====
/-
  What both programs compute for one node, and the law that joins their two arrangements of its third part.

  For one node the result row is two dense layers on a joined row of 192 entries,
    out p = max (∑ q, max (∑ c, cat c * Wc0 q c) 0 * Wc1 p q) 0,
  where `cat` joins three rows of 64 (`cat3`). The two programs build the same first and second row; the third row they
  arrange differently. With `S` the set of edges landing on the node, `w e` an edge's weight, `a k = W4 k` and
  `b k = W3 q k`, one program sums `max (w e * a k) 0` over the edges first and contracts with `b` afterwards,
    ∑ k, (∑ e ∈ S, max (w e * a k) 0) * b k,
  the other contracts two fixed rows once and scales them by two edge sums,
    (∑ e ∈ S, max (w e) 0) * (∑ k, max (a k) 0 * b k) + (∑ e ∈ S, max (-w e) 0) * (∑ k, max (-a k) 0 * b k).
  They agree because, for real `x` and `y`, max (x * y) 0 = max x 0 * max y 0 + max (-x) 0 * max (-y) 0 (one of the two
  products vanishes by the signs), and because finite sums of reals distribute over products. Distributivity fails
  at the infinities of the extended reals, so the law is stated for entries that are real numbers.
-/
import Idealize.ShloMosaic.PureOps.Ideal

noncomputable section

open scoped BigOperators

namespace Cert.Proof.Spec

/-! ## The row function -/

/-- Three rows of 64 joined into one of 192: entry `c` is entry `c % 64` of row `c / 64`. -/
def cat3 (f : Fin 3 → Fin 64 → EReal) (c : Fin 192) : EReal :=
  f ⟨c.val / 64, by have := c.isLt; omega⟩ ⟨c.val % 64, Nat.mod_lt _ (by decide)⟩

/-- The two dense layers on one joined row: a 192 → 64 layer with weights `Wc0`, clipped below at zero, then a
    64 → 64 layer with weights `Wc1`, clipped below at zero. -/
def mlpRow (Wc0 : Fin 64 → Fin 192 → EReal) (Wc1 : Fin 64 → Fin 64 → EReal) (f : Fin 3 → Fin 64 → EReal)
    (p : Fin 64) : EReal :=
  max (∑ q : Fin 64, max (∑ c : Fin 192, cat3 f c * Wc0 q c) 0 * Wc1 p q) 0

/-! ## The law over the reals -/

/-- Clipping a product at zero: of the four sign cases two give `x * y` from one of the products, two give zero. -/
theorem relu_mul (x y : ℝ) : max (x * y) 0 = max x 0 * max y 0 + max (-x) 0 * max (-y) 0 := by
  rcases le_total 0 x with hx | hx <;> rcases le_total 0 y with hy | hy
  · rw [max_eq_left (by nlinarith : (0 : ℝ) ≤ x * y), max_eq_left hx, max_eq_left hy,
      max_eq_right (by linarith : -x ≤ 0), max_eq_right (by linarith : -y ≤ 0)]; ring
  · rw [max_eq_right (by nlinarith : x * y ≤ 0), max_eq_left hx, max_eq_right hy,
      max_eq_right (by linarith : -x ≤ 0), max_eq_left (by linarith : (0 : ℝ) ≤ -y)]; ring
  · rw [max_eq_right (by nlinarith : x * y ≤ 0), max_eq_right hx, max_eq_left hy,
      max_eq_left (by linarith : (0 : ℝ) ≤ -x), max_eq_right (by linarith : -y ≤ 0)]; ring
  · rw [max_eq_left (by nlinarith : (0 : ℝ) ≤ x * y), max_eq_right hx, max_eq_right hy,
      max_eq_left (by linarith : (0 : ℝ) ≤ -x), max_eq_left (by linarith : (0 : ℝ) ≤ -y)]; ring

/-- The two arrangements of the third part agree over the reals: edges `e` selected by `L`, weights `w`, the
    rank-one factor `a`, the contracted row `b`. -/
theorem fold_real {E K : Type} [Fintype E] [Fintype K] (L : E → Prop) [DecidablePred L] (w : E → ℝ) (a b : K → ℝ) :
    ∑ k, (∑ e, if L e then max (w e * a k) 0 else 0) * b k
      = (∑ e, if L e then max (w e) 0 else 0) * (∑ k, max (a k) 0 * b k)
        + (∑ e, if L e then max (-(w e)) 0 else 0) * (∑ k, max (-(a k)) 0 * b k) := by
  rw [Finset.sum_mul_sum, Finset.sum_mul_sum, ← Finset.sum_add_distrib]
  simp_rw [Finset.sum_mul]
  rw [Finset.sum_comm]
  refine Finset.sum_congr rfl fun e _ => ?_
  rw [← Finset.sum_add_distrib]
  refine Finset.sum_congr rfl fun k _ => ?_
  split_ifs
  · rw [relu_mul]; ring
  · ring

/-! ## The law over the extended reals, for real entries -/

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with clipping at zero. -/
theorem coe_relu (x : ℝ) : max (x : EReal) 0 = ((max x 0 : ℝ) : EReal) := by
  rw [← EReal.coe_zero]; exact (EReal.coe_strictMono.monotone.map_max).symm

/-- The inclusion of the reals commutes with selecting a term or zero. -/
theorem coe_ite0 (c : Prop) [Decidable c] (x : ℝ) : (if c then (x : EReal) else 0) = ((if c then x else 0 : ℝ) : EReal) := by
  split_ifs <;> rfl

/-- The two arrangements of the third part agree over the extended reals when every weight and both factors are real
    numbers. -/
theorem fold_ereal {E K : Type} [Fintype E] [Fintype K] (L : E → Prop) [DecidablePred L] (w : E → EReal) (a b : K → EReal)
    (hw : ∀ e, ∃ r : ℝ, w e = (r : EReal)) (ha : ∀ k, ∃ r : ℝ, a k = (r : EReal)) (hb : ∀ k, ∃ r : ℝ, b k = (r : EReal)) :
    ∑ k, (∑ e, if L e then max (w e * a k) 0 else 0) * b k
      = (∑ e, if L e then max (w e) 0 else 0) * (∑ k, max (a k) 0 * b k)
        + (∑ e, if L e then max (-(w e)) 0 else 0) * (∑ k, max (-(a k)) 0 * b k) := by
  choose wr hwr using hw
  choose ar har using ha
  choose br hbr using hb
  simp only [hwr, har, hbr, ← EReal.coe_neg, ← EReal.coe_mul, coe_relu, coe_ite0, ← coe_sum, ← EReal.coe_add]
  exact congrArg _ (fold_real L wr ar br)

end Cert.Proof.Spec

end
-- ==== Proof.KernelPayload.lean ====
/-
  The kernel body's arithmetic at one entry of its output block.

  The body loads ten blocks — for 4000 nodes: the node scalar `x0`, the aggregated features `x1`, the two edge-weight
  sums `x2` and `x3`; and the weights: the row `x4`, the matrix `x5`, the two folded rows `x6` and `x7`, and the two
  layers' matrices `x8`, `x9` — and stores one block. Entry `(a, p)` of the stored block depends on row `a` of the
  node blocks alone: it is the two dense layers (`Spec.mlpRow`) applied to the three rows
    q ↦ x0 (a, 0) * x4 (0, q),   q ↦ ∑ k, x1 (a, k) * x5 (q, k),   q ↦ x2 (a, 0) * x6 (0, q) + x3 (a, 0) * x7 (0, q)
  joined. A change of float format is the identity on extended reals, a matrix product into the zero accumulator is
  the plain sum, and every transposed weight is read back at the swapped index.
-/
import proofs.«179258_j13597866459920_2_alg».proof.Proof.Gen.KernelIdeal.Skeleton
import proofs.«179258_j13597866459920_2_alg».proof.Proof.LibRowOps
import proofs.«179258_j13597866459920_2_alg».proof.Proof.Spec

noncomputable section

open scoped BigOperators

namespace Cert.Proof.KernelPayload

open Cert.KernelIdeal Cert.KernelIdeal.Gen Idealize.ShloMosaic Idealize.ShloMosaic.ValueIdx Idealize.ShloMosaic.RowOps
open Cert.Proof.Spec

/-- The first row: the node scalar times the first weight row. -/
theorem row1 (v0 : Vec Ideal S4000x1 .f32) (v1 : Vec Ideal S1x64 .f32) (a : Fin 4000) (q : Fin 64) :
    (mulf (broadcastTo S4000x64 v0 broadcasts_S4000x1_S4000x64)
        (broadcastTo S4000x64 (shapeCast S1x64 v1 shapeCasts_S1x64_S1x64) broadcasts_S1x64_S4000x64)
          : FVec Ideal S4000x64 .f32) (ix2 a q)
      = v0 (ix2 a 0) * v1 (ix2 0 q) := by
  rw [mulf_apply, broadcastTo_a1_ab_apply, broadcastTo_1b_ab_apply, shapeCast_self]

/-- The second row: the aggregated features contracted with the second weight matrix, read transposed. -/
theorem row2 (v6 : Vec Ideal S4000x64 .f32) (v9 : Vec Ideal S64x64 .f32) (a : Fin 4000) (q : Fin 64) :
    (matmul dot_S4000x64_S64x64_S4000x64_1_0_0_1_n_n none
        (truncf .bf16 (shapeCast S4000x64 v6 shapeCasts_S4000x64_S4000x64) bitsLt_bf16_f32)
        (transpose S64x64 [1, 0] (truncf .bf16 v9 bitsLt_bf16_f32) transposes_S64x64_p1_0_S64x64)
        (constant S4000x64 .f32 0x00000000#32) : FVec Ideal S4000x64 .f32) (ix2 a q)
      = ∑ k : Fin 64, v6 (ix2 a k) * v9 (ix2 q k) := by
  simp only [matmul]
  rw [matmul_zero_plain_apply dot_S4000x64_S64x64_S4000x64_1_0_0_1_n_n ⟨_, rfl⟩]
  refine Finset.sum_congr rfl fun k _ => ?_
  rw [transpose_ix2_apply, shapeCast_self]
  rfl

/-- The third row: the two edge-weight sums times the two folded rows, added. -/
theorem row3 (v13 : Vec Ideal S4000x1 .f32) (v15 : Vec Ideal S1x64 .f32) (v20 : Vec Ideal S4000x1 .f32)
    (v22 : Vec Ideal S1x64 .f32) (a : Fin 4000) (q : Fin 64) :
    (addf
        (mulf (broadcastTo S4000x64 (shapeCast S4000x1 v13 shapeCasts_S4000x1_S4000x1) broadcasts_S4000x1_S4000x64)
          (broadcastTo S4000x64 (shapeCast S1x64 v15 shapeCasts_S1x64_S1x64) broadcasts_S1x64_S4000x64))
        (mulf (broadcastTo S4000x64 (shapeCast S4000x1 v20 shapeCasts_S4000x1_S4000x1) broadcasts_S4000x1_S4000x64)
          (broadcastTo S4000x64 (shapeCast S1x64 v22 shapeCasts_S1x64_S1x64) broadcasts_S1x64_S4000x64))
          : FVec Ideal S4000x64 .f32) (ix2 a q)
      = v13 (ix2 a 0) * v15 (ix2 0 q) + v20 (ix2 a 0) * v22 (ix2 0 q) := by
  rw [addf_apply, mulf_apply, mulf_apply, broadcastTo_a1_ab_apply, broadcastTo_a1_ab_apply, broadcastTo_1b_ab_apply,
    broadcastTo_1b_ab_apply, shapeCast_self, shapeCast_self, shapeCast_self, shapeCast_self]

/-- The hidden layer at `(a, q)`: the three rows joined, contracted with the first layer's matrix, clipped at zero. -/
theorem hidden_row (v0 : Vec Ideal S4000x1 .f32) (v1 : Vec Ideal S1x64 .f32) (v6 : Vec Ideal S4000x64 .f32)
    (v9 : Vec Ideal S64x64 .f32) (v13 : Vec Ideal S4000x1 .f32) (v15 : Vec Ideal S1x64 .f32)
    (v20 : Vec Ideal S4000x1 .f32) (v22 : Vec Ideal S1x64 .f32) (v29 : Vec Ideal S64x192 .f32) (a : Fin 4000) (q : Fin 64) :
    k0_pay2 (F := Ideal) v0 v1 v6 v9 v13 v15 v20 v22 v29 (ix2 a q)
      = max (∑ c : Fin 192, cat3 ![fun q => v0 (ix2 a 0) * v1 (ix2 0 q),
            fun q => ∑ k : Fin 64, v6 (ix2 a k) * v9 (ix2 q k),
            fun q => v13 (ix2 a 0) * v15 (ix2 0 q) + v20 (ix2 a 0) * v22 (ix2 0 q)] c * v29 (ix2 q c)) 0 := by
  unfold k0_pay2
  simp only [matmul]
  rw [maximumf_apply, broadcast_apply, matmul_zero_plain_apply dot_S4000x192_S192x64_S4000x64_1_0_0_1_n_n ⟨_, rfl⟩]
  show max _ (Ideal.ofBits .f32 0x00000000#32) = _
  rw [Ideal.ofBits_zero_f32]
  congr 1
  refine Finset.sum_congr rfl fun c _ => ?_
  rw [transpose_ix2_apply, truncf_apply, truncf_apply, concat3_apply]
  congr 1
  unfold cat3
  generalize hn : (⟨c.val / 64, by have := c.isLt; omega⟩ : Fin 3) = n
  generalize (⟨c.val % 64, Nat.mod_lt _ (by decide)⟩ : Fin 64) = r
  match n with
  | ⟨0, _⟩ => exact row1 v0 v1 a r
  | ⟨1, _⟩ => exact row2 v6 v9 a r
  | ⟨2, _⟩ => exact row3 v13 v15 v20 v22 a r

/-- The stored block at `(a, p)`: the hidden row contracted with the second layer's matrix, clipped at zero. -/
theorem out_row (v35 : FVec Ideal S4000x64 .f32) (v36 : Vec Ideal S64x64 .f32) (a : Fin 4000) (p : Fin 64) :
    k0_pay1 (F := Ideal) v35 v36 (ix2 a p) = max (∑ q : Fin 64, v35 (ix2 a q) * v36 (ix2 p q)) 0 := by
  unfold k0_pay1
  simp only [matmul]
  rw [maximumf_apply, broadcast_apply, matmul_zero_plain_apply dot_S4000x64_S64x64_S4000x64_1_0_0_1_n_n ⟨_, rfl⟩]
  show max _ (Ideal.ofBits .f32 0x00000000#32) = _
  rw [Ideal.ofBits_zero_f32]
  congr 1
  refine Finset.sum_congr rfl fun q _ => ?_
  rw [transpose_ix2_apply]
  rfl

/-- THE BODY AT AN ENTRY: both layers on the three joined rows of node `a`. -/
theorem payload_row (x0 : Vec Ideal S4000x1 .f32) (x1 : Vec Ideal S4000x64 .f32) (x2 x3 : Vec Ideal S4000x1 .f32)
    (x4 : Vec Ideal S1x64 .f32) (x5 : Vec Ideal S64x64 .f32) (x6 x7 : Vec Ideal S1x64 .f32)
    (x8 : Vec Ideal S64x192 .f32) (x9 : Vec Ideal S64x64 .f32) (a : Fin 4000) (p : Fin 64) :
    k0_pay1 (F := Ideal) (k0_pay2 (F := Ideal) x0 x4 x1 x5 x2 x6 x3 x7 x8) x9 (ix2 a p)
      = mlpRow (fun q c => x8 (ix2 q c)) (fun p q => x9 (ix2 p q))
          ![fun q => x0 (ix2 a 0) * x4 (ix2 0 q),
            fun q => ∑ k : Fin 64, x1 (ix2 a k) * x5 (ix2 q k),
            fun q => x2 (ix2 a 0) * x6 (ix2 0 q) + x3 (ix2 a 0) * x7 (ix2 0 q)] p := by
  rw [out_row]
  unfold mlpRow
  congr 1
  refine Finset.sum_congr rfl fun q _ => ?_
  rw [hidden_row]

/-- The same, with everything the entry depends on named: the node's scalar `r0`, feature row `r1` and two edge sums
    `r2`, `r3`; the weight row `w4`, matrix `w5`, folded rows `w6`, `w7`, and the layers' matrices `w8`, `w9`. -/
def rowsOf (r0 : EReal) (r1 : Fin 64 → EReal) (r2 r3 : EReal) (w4 : Fin 64 → EReal) (w5 : Fin 64 → Fin 64 → EReal)
    (w6 w7 : Fin 64 → EReal) (w8 : Fin 64 → Fin 192 → EReal) (w9 : Fin 64 → Fin 64 → EReal) (p : Fin 64) : EReal :=
  mlpRow w8 w9 ![fun q => r0 * w4 q, fun q => ∑ k : Fin 64, r1 k * w5 q k, fun q => r2 * w6 q + r3 * w7 q] p

theorem payload_rows (x0 : Vec Ideal S4000x1 .f32) (x1 : Vec Ideal S4000x64 .f32) (x2 x3 : Vec Ideal S4000x1 .f32)
    (x4 : Vec Ideal S1x64 .f32) (x5 : Vec Ideal S64x64 .f32) (x6 x7 : Vec Ideal S1x64 .f32)
    (x8 : Vec Ideal S64x192 .f32) (x9 : Vec Ideal S64x64 .f32) (a : Fin 4000) (p : Fin 64) :
    k0_pay1 (F := Ideal) (k0_pay2 (F := Ideal) x0 x4 x1 x5 x2 x6 x3 x7 x8) x9 (ix2 a p)
      = rowsOf (x0 (ix2 a 0)) (fun k => x1 (ix2 a k)) (x2 (ix2 a 0)) (x3 (ix2 a 0)) (fun q => x4 (ix2 0 q))
          (fun q k => x5 (ix2 q k)) (fun q => x6 (ix2 0 q)) (fun q => x7 (ix2 0 q)) (fun q c => x8 (ix2 q c))
          (fun p q => x9 (ix2 p q)) p :=
  payload_row x0 x1 x2 x3 x4 x5 x6 x7 x8 x9 a p

end Cert.Proof.KernelPayload

end
-- ==== Proof.KernelValue.lean ====
/-
  From blocks to the array: what the kernel's result array holds after the run.

  The grid has 25 points; point `t` works on nodes `4000 t … 4000 t + 3999`: it loads rows `4000 t + a` of the four
  per-node arrays and the six weight arrays whole, and writes back rows `4000 t + a` of the result. By the body's
  arithmetic at an entry (`KernelPayload.payload_row`) the block point `t` writes back is the restriction to those rows
  of ONE function `G` of the ten whole arrays: `G … (n, p)` is the two dense layers on the three joined rows of node
  `n`. The 25 blocks cover the 100000 rows (row `r` lies in block `r / 4000`), so the result array ends at `G`.
-/
import proofs.«179258_j13597866459920_2_alg».proof.Proof.Gen.KernelIdeal.Value
import proofs.«179258_j13597866459920_2_alg».proof.Proof.KernelPayload

set_option maxRecDepth 16384

noncomputable section

open scoped BigOperators

namespace Cert.Proof.KernelValue

open Cert.KernelIdeal Cert.KernelIdeal.Gen Idealize.ShloMosaic Idealize.ShloMosaic.TcCoe Idealize.SL.Sem
open Idealize.ShloMosaic.ValueIdx Idealize.ShloMosaic.RowOps Cert.Proof.Spec Cert.Proof.KernelPayload
open Idealize.ShloMosaic.Pipeline (Dat)

variable (m : (ℓ : Loc nD τ sig) → Buf (Elt Ideal) ℓ) (ρ : Dev nD → PrngReg)

/-- The result array as one function of the ten arrays the region reads: at `(n, p)`, the two dense layers on the
    three joined rows of node `n`. -/
def G (A0 : S100000x1.Idx → EReal) (A1 : S100000x64.Idx → EReal) (A2 A3 : S100000x1.Idx → EReal)
    (A4 : S1x64.Idx → EReal) (A5 : S64x64.Idx → EReal) (A6 A7 : S1x64.Idx → EReal) (A8 : S64x192.Idx → EReal)
    (A9 : S64x64.Idx → EReal) : S100000x64.Idx → EReal := fun i =>
  rowsOf (A0 (ix2 (i 0) 0)) (fun k => A1 (ix2 (i 0) k)) (A2 (ix2 (i 0) 0)) (A3 (ix2 (i 0) 0)) (fun q => A4 (ix2 0 q))
    (fun q k => A5 (ix2 q k)) (fun q => A6 (ix2 0 q)) (fun q => A7 (ix2 0 q)) (fun q c => A8 (ix2 q c))
    (fun p q => A9 (ix2 p q)) (i 1)

theorem hz : (![0, 0] : Fin 2 → Nat) = fun _ => 0 := funext fun a => by fin_cases a <;> rfl

/-- The printed index maps over the 25 grid points: the per-node windows and the result's window sit at block row
    `t`, column block 0; the weight windows at block (0, 0). -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The row of the arrays that row `a` of point `t`'s blocks is. -/
abbrev rowOf (t : Fin cfg0.N) (a : Fin 4000) : Fin 100000 :=
  ⟨t.val * 4000 + a.val, by have ht : t.val < 25 := t.isLt; have := a.isLt; omega⟩

/-! ## Each input window's block of ANY array, read where the result block's row sits

A window's block at point `t` reads the array at the block's offset: for the per-node windows row `a` of the block is
row `4000 t + a` of the array, for the weight windows the block is the whole array. Stated for an arbitrary array `A`. -/

theorem read0 (A : (⟨S100000x1, .f32⟩ : BufTy).Contents (Elt Ideal)) (t : Fin cfg0.N) (a : Fin 4000) :
    ((cfg0.win 0).blk t).view.read (Elt Ideal) A (ix2 a (0 : Fin 1)) = A (ix2 (rowOf t a) (0 : Fin 1)) := by
  have hf := idx_facts t
  show A (((cfg0.win 0).blk t).view.emb (ix2 a (0 : Fin 1))) = A (ix2 (rowOf t a) (0 : Fin 1))
  refine congrArg A (funext fun ax => Fin.ext ?_)
  match ax with
  | ⟨0, _⟩ => show win0_0.index t (0 : Fin 2) * 4000 + 1 * a.val = t.val * 4000 + a.val; omega
  | ⟨1, _⟩ => show win0_0.index t (1 : Fin 2) * 1 + 1 * 0 = 0; omega

theorem read1 (A : (⟨S100000x64, .f32⟩ : BufTy).Contents (Elt Ideal)) (t : Fin cfg0.N) (a : Fin 4000) (k : Fin 64) :
    ((cfg0.win 1).blk t).view.read (Elt Ideal) A (ix2 a k) = A (ix2 (rowOf t a) k) := by
  have hf := idx_facts t
  show A (((cfg0.win 1).blk t).view.emb (ix2 a k)) = A (ix2 (rowOf t a) k)
  refine congrArg A (funext fun ax => Fin.ext ?_)
  match ax with
  | ⟨0, _⟩ => show win0_1.index t (0 : Fin 2) * 4000 + 1 * a.val = t.val * 4000 + a.val; omega
  | ⟨1, _⟩ => show win0_1.index t (1 : Fin 2) * 64 + 1 * k.val = k.val; omega

theorem read2 (A : (⟨S100000x1, .f32⟩ : BufTy).Contents (Elt Ideal)) (t : Fin cfg0.N) (a : Fin 4000) :
    ((cfg0.win 2).blk t).view.read (Elt Ideal) A (ix2 a (0 : Fin 1)) = A (ix2 (rowOf t a) (0 : Fin 1)) := by
  have hf := idx_facts t
  show A (((cfg0.win 2).blk t).view.emb (ix2 a (0 : Fin 1))) = A (ix2 (rowOf t a) (0 : Fin 1))
  refine congrArg A (funext fun ax => Fin.ext ?_)
  match ax with
  | ⟨0, _⟩ => show win0_2.index t (0 : Fin 2) * 4000 + 1 * a.val = t.val * 4000 + a.val; omega
  | ⟨1, _⟩ => show win0_2.index t (1 : Fin 2) * 1 + 1 * 0 = 0; omega

theorem read3 (A : (⟨S100000x1, .f32⟩ : BufTy).Contents (Elt Ideal)) (t : Fin cfg0.N) (a : Fin 4000) :
    ((cfg0.win 3).blk t).view.read (Elt Ideal) A (ix2 a (0 : Fin 1)) = A (ix2 (rowOf t a) (0 : Fin 1)) := by
  have hf := idx_facts t
  show A (((cfg0.win 3).blk t).view.emb (ix2 a (0 : Fin 1))) = A (ix2 (rowOf t a) (0 : Fin 1))
  refine congrArg A (funext fun ax => Fin.ext ?_)
  match ax with
  | ⟨0, _⟩ => show win0_3.index t (0 : Fin 2) * 4000 + 1 * a.val = t.val * 4000 + a.val; omega
  | ⟨1, _⟩ => show win0_3.index t (1 : Fin 2) * 1 + 1 * 0 = 0; omega

theorem read4 (A : (⟨S1x64, .f32⟩ : BufTy).Contents (Elt Ideal)) (t : Fin cfg0.N) (q : Fin 64) :
    ((cfg0.win 4).blk t).view.read (Elt Ideal) A (ix2 (0 : Fin 1) q) = A (ix2 (0 : Fin 1) q) := by
  have hf := idx_facts t
  show A (((cfg0.win 4).blk t).view.emb (ix2 (0 : Fin 1) q)) = A (ix2 (0 : Fin 1) q)
  refine congrArg A (funext fun ax => Fin.ext ?_)
  match ax with
  | ⟨0, _⟩ => show win0_4.index t (0 : Fin 2) * 1 + 1 * 0 = 0; omega
  | ⟨1, _⟩ => show win0_4.index t (1 : Fin 2) * 64 + 1 * q.val = q.val; omega

theorem read5 (A : (⟨S64x64, .f32⟩ : BufTy).Contents (Elt Ideal)) (t : Fin cfg0.N) (q k : Fin 64) :
    ((cfg0.win 5).blk t).view.read (Elt Ideal) A (ix2 q k) = A (ix2 q k) := by
  have hf := idx_facts t
  show A (((cfg0.win 5).blk t).view.emb (ix2 q k)) = A (ix2 q k)
  refine congrArg A (funext fun ax => Fin.ext ?_)
  match ax with
  | ⟨0, _⟩ => show win0_5.index t (0 : Fin 2) * 64 + 1 * q.val = q.val; omega
  | ⟨1, _⟩ => show win0_5.index t (1 : Fin 2) * 64 + 1 * k.val = k.val; omega

theorem read6 (A : (⟨S1x64, .f32⟩ : BufTy).Contents (Elt Ideal)) (t : Fin cfg0.N) (q : Fin 64) :
    ((cfg0.win 6).blk t).view.read (Elt Ideal) A (ix2 (0 : Fin 1) q) = A (ix2 (0 : Fin 1) q) := by
  have hf := idx_facts t
  show A (((cfg0.win 6).blk t).view.emb (ix2 (0 : Fin 1) q)) = A (ix2 (0 : Fin 1) q)
  refine congrArg A (funext fun ax => Fin.ext ?_)
  match ax with
  | ⟨0, _⟩ => show win0_6.index t (0 : Fin 2) * 1 + 1 * 0 = 0; omega
  | ⟨1, _⟩ => show win0_6.index t (1 : Fin 2) * 64 + 1 * q.val = q.val; omega

theorem read7 (A : (⟨S1x64, .f32⟩ : BufTy).Contents (Elt Ideal)) (t : Fin cfg0.N) (q : Fin 64) :
    ((cfg0.win 7).blk t).view.read (Elt Ideal) A (ix2 (0 : Fin 1) q) = A (ix2 (0 : Fin 1) q) := by
  have hf := idx_facts t
  show A (((cfg0.win 7).blk t).view.emb (ix2 (0 : Fin 1) q)) = A (ix2 (0 : Fin 1) q)
  refine congrArg A (funext fun ax => Fin.ext ?_)
  match ax with
  | ⟨0, _⟩ => show win0_7.index t (0 : Fin 2) * 1 + 1 * 0 = 0; omega
  | ⟨1, _⟩ => show win0_7.index t (1 : Fin 2) * 64 + 1 * q.val = q.val; omega

theorem read8 (A : (⟨S64x192, .f32⟩ : BufTy).Contents (Elt Ideal)) (t : Fin cfg0.N) (q : Fin 64) (cc : Fin 192) :
    ((cfg0.win 8).blk t).view.read (Elt Ideal) A (ix2 q cc) = A (ix2 q cc) := by
  have hf := idx_facts t
  show A (((cfg0.win 8).blk t).view.emb (ix2 q cc)) = A (ix2 q cc)
  refine congrArg A (funext fun ax => Fin.ext ?_)
  match ax with
  | ⟨0, _⟩ => show win0_8.index t (0 : Fin 2) * 64 + 1 * q.val = q.val; omega
  | ⟨1, _⟩ => show win0_8.index t (1 : Fin 2) * 192 + 1 * cc.val = cc.val; omega

theorem read9 (A : (⟨S64x64, .f32⟩ : BufTy).Contents (Elt Ideal)) (t : Fin cfg0.N) (q k : Fin 64) :
    ((cfg0.win 9).blk t).view.read (Elt Ideal) A (ix2 q k) = A (ix2 q k) := by
  have hf := idx_facts t
  show A (((cfg0.win 9).blk t).view.emb (ix2 q k)) = A (ix2 q k)
  refine congrArg A (funext fun ax => Fin.ext ?_)
  match ax with
  | ⟨0, _⟩ => show win0_9.index t (0 : Fin 2) * 64 + 1 * q.val = q.val; omega
  | ⟨1, _⟩ => show win0_9.index t (1 : Fin 2) * 64 + 1 * k.val = k.val; omega

/-- The result block's entry `(a, p)` is the array's entry `(4000 t + a, p)`. -/
theorem emb10 (t : Fin cfg0.N) (a : Fin 4000) (p : Fin 64) :
    ((cfg0.win 10).blk t).view.emb (ix2 a p) = ix2 (rowOf t a) p := by
  obtain ⟨e0, e1, -⟩ := idx_facts t
  refine funext fun ax => Fin.ext ?_
  match ax with
  | ⟨0, _⟩ => show win0_10.index t (0 : Fin 2) * 4000 + 1 * a.val = t.val * 4000 + a.val; omega
  | ⟨1, _⟩ => show win0_10.index t (1 : Fin 2) * 64 + 1 * p.val = p.val; omega

/-! ## What a point writes back, the cover, the array -/

/-- `G` of the ten arrays as the region finds them, window by window. -/
abbrev GV (c : Dev nD) : S100000x64.Idx → EReal :=
  G (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))
    (V m c (Pipeline.arrRef spec0 9))

/-- WHAT POINT `t` WRITES BACK is block `t` of `G` of the arrays as the region finds them. -/
theorem flushed_eq (c : Dev nD) (t : Fin cfg0.N) :
    (dats m 0 c).flushed 10 t = ((cfg0.win 10).blk t).view.read (Elt Ideal) (GV m c) := by
  rw [Cert.KernelIdeal.Value.flushed10]
  unfold out0_10
  rw [View.canon_unit_zero hz]
  simp only [View.ld_unit_zero (S := S4000x1) hz, View.ld_unit_zero (S := S4000x64) hz, View.ld_unit_zero (S := S1x64) hz,
    View.ld_unit_zero (S := S64x64) hz, View.ld_unit_zero (S := S64x192) hz]
  funext y
  obtain ⟨a, p, rfl⟩ : ∃ (a : Fin 4000) (p : Fin 64), y = ix2 a p := ⟨y 0, y 1, eq_ix2 y⟩
  show k0_pay1 (F := Ideal) (k0_pay2 (F := Ideal) (iblk m c 0 t) (iblk m c 4 t) (iblk m c 1 t) (iblk m c 5 t) (iblk m c 2 t)
      (iblk m c 6 t) (iblk m c 3 t) (iblk m c 7 t) (iblk m c 8 t)) (iblk m c 9 t) (ix2 a p)
    = GV m c (((cfg0.win 10).blk t).view.emb (ix2 a p))
  rw [emb10]
  refine (payload_rows (iblk m c 0 t) (iblk m c 1 t) (iblk m c 2 t) (iblk m c 3 t) (iblk m c 4 t) (iblk m c 5 t)
    (iblk m c 6 t) (iblk m c 7 t) (iblk m c 8 t) (iblk m c 9 t) a p).trans ?_
  exact congrFun (congr (congr (congr (congr (congr (congr (congr (congr (congr
    (congrArg rowsOf (read0 (V m c (Pipeline.arrRef spec0 0)) t a))
    (funext fun k => read1 (V m c (Pipeline.arrRef spec0 1)) t a k))
    (read2 (V m c (Pipeline.arrRef spec0 2)) t a))
    (read3 (V m c (Pipeline.arrRef spec0 3)) t a))
    (funext fun q => read4 (V m c (Pipeline.arrRef spec0 4)) t q))
    (funext fun q => funext fun k => read5 (V m c (Pipeline.arrRef spec0 5)) t q k))
    (funext fun q => read6 (V m c (Pipeline.arrRef spec0 6)) t q))
    (funext fun q => read7 (V m c (Pipeline.arrRef spec0 7)) t q))
    (funext fun q => funext fun cc => read8 (V m c (Pipeline.arrRef spec0 8)) t q cc))
    (funext fun p' => funext fun q => read9 (V m c (Pipeline.arrRef spec0 9)) t p' q)) p

/-- An index of the array is in point `t`'s block iff each coordinate is in the block's range on its axis. -/
theorem mem_blk (t : Fin cfg0.N) (i : S100000x64.Idx) :
    i ∈ ((cfg0.win 10).blk t).view.set ↔ ∀ a : Fin 2, win0_10.index t a * S4000x64.size a ≤ (i a).val
      ∧ (i a).val < win0_10.index t a * S4000x64.size a + S4000x64.size a := by
  show i ∈ ((View.whole main_v33).slice (win0_10.rect t)).set ↔ _
  rw [View.set_slice_whole, Rect.mem_set_unit]
  exact Iff.rfl

/-- Every index of the result array is in some point's block: row `r` is in block `r / 4000`. -/
theorem cover (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  let t : Fin cfg0.N := ⟨(i 0).val / 4000, by show (i 0).val / 4000 < 25; omega⟩
  obtain ⟨e0, e1, -⟩ := idx_facts t
  have ht : t.val = (i 0).val / 4000 := rfl
  refine ⟨t, flush0_10 t, ?_⟩
  rw [mem_blk]
  intro a
  match a with
  | ⟨0, _⟩ =>
    show win0_10.index t (0 : Fin 2) * 4000 ≤ (i 0).val ∧ (i 0).val < win0_10.index t (0 : Fin 2) * 4000 + 4000
    omega
  | ⟨1, _⟩ =>
    show win0_10.index t (1 : Fin 2) * 64 ≤ (i 1).val ∧ (i 1).val < win0_10.index t (1 : Fin 2) * 64 + 64
    omega

/-- THE ARRAY after the run: `G` of the ten arrays as the region finds them. -/
theorem final (c : Dev nD) : (dats m 0 c).arrAt 10 cfg0.N = GV m c :=
  (dats m 0 c).arrAt_eq_of_cover 10 (GV m c) (fun t _ => flushed_eq m c t) cover

/-- The run re-posted: the result array at `G`, the arguments unchanged. -/
theorem run : θ_run defs (onTc (τ := τ) (main (F := Ideal))) ⟨m, fun _ => 0, ρ⟩ fun r => ∀ c : Dev nD,
      r.2.mem ((c : Thread nD τ).loc main_v33) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Proof.KernelValue

end
-- ==== Proof.LibScatterRows.lean ====
/-
  THE ACCUMULATING ROW SCATTER READ AT AN INDEX, at the ideal instance (floats are extended reals).

  A row scatter adds update row `e` of an `[E, C]` array of updates into row `idx[e, 0]` of an `[N, C]` operand:
  `"stablehlo.scatter"` with an `add` body and dimension numbers update_window_dims = [1], inserted_window_dims = [0],
  scatter_dims_to_operand_dims = [0], index_vector_dim = 1, over scatter indices of shape `[E, 1]` (what a segment sum
  over the leading axis lowers to). The scatter index is read SIGNED and is NOT clamped: an update row whose index is
  outside `[0, N)` is dropped. At the ideal instance the result is the exact sum, so element `(n, q)` of the result is

      x[n, q] + ∑ e : Fin E, if idx[e, 0] = n then upd[e, q] else 0

  (`scatterAdd_rows_apply`): a plain sum over the `E` update rows whose landing condition `idx[e, 0] = n` does not
  mention the column `q` nor the column count `C` — two row scatters through the same indices, of different widths,
  are read with one common condition. The extents `N`, `E`, `C` and the index width `w` are arbitrary; nothing here
  enumerates a row range.

  Road: on these dimension numbers the window start is the row's scatter index on axis 0 and `0` on axis 1
  (`start_zero`, `start_one`), the window coordinate is `0` on axis 0 and the update's column on axis 1
  (`window_zero`, `window_one`); so an update index `j` lands at `(n, q)` iff `idx[j 0, 0] = n` and `j 1 = q`
  (`resultIdx?_eq_some_iff`; the bounds `0 ≤ · < N`, `· < C` hold by themselves then). The filtered sum over update
  indices becomes a double sum over (row, column) whose inner sum has exactly one nonzero term.
-/
import Idealize.ShloMosaic.PureOps.Ideal
import Idealize.ShloMosaic.PureOps.Contract
import Idealize.ShloMosaic.Lib.ValueIdx

noncomputable section

open scoped BigOperators

namespace Idealize.ShloMosaic.ScatterRows

open Idealize.ShloMosaic Idealize.ShloMosaic.ValueIdx

/-- The dimension numbers of a row scatter of `[E, C]` updates into an `[N, C]` operand through `[E, 1]` scatter
    indices: the updates' axis 1 is the window axis, the operand's axis 0 is inserted and is the one the scatter
    index addresses, the index vector lies along the indices' axis 1. `wf` is any proof of the conditions. -/
abbrev rowDims (N E C : Nat)
    (wf : ScatterDims.WF (⟨2, ![N, C]⟩ : Shape) ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat}
  (wf : ScatterDims.WF (⟨2, ![N, C]⟩ : Shape) ⟨2, ![E, 1]⟩ ⟨2, ![E, C]⟩ [1] [0] [0] 1)

/-- On the row axis the window starts at the update row's scatter index, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`: the map does not name that axis. -/
theorem start_one (j : (⟨2, ![E, C]⟩ : Shape).Idx) (idx : IVec ⟨2, ![E, 1]⟩ w) :
    (rowDims N E C wf).start j idx 1 = 0 := by
  unfold ScatterDims.start
  have h : ¬ (1 : Fin 2) ∈ ([0] : List (Fin 2)) := by decide
  rw [dif_neg (show ¬ (1 : Fin 2) ∈ (rowDims N E C wf).scatterDimsToOperandDims from h)]

/-- The window coordinate on the row axis is `0`: that axis is inserted. -/
theorem window_zero (j : (⟨2, ![E, C]⟩ : Shape).Idx) :
    (rowDims N E C wf).window j 0 = 0 := by
  unfold ScatterDims.window
  have h : ¬ (0 : Fin 2) ∈ (List.finRange 2).filter (fun a => a ∉ ([0] : List (Fin 2))) := by decide
  rw [dif_neg (show ¬ (0 : Fin 2) ∈ (rowDims N E C wf).sKept from h)]

/-- The window coordinate on the column axis is the update's column. -/
theorem window_one (j : (⟨2, ![E, C]⟩ : Shape).Idx) :
    (rowDims N E C wf).window j 1 = (j 1).val := by
  unfold ScatterDims.window
  have h : (1 : Fin 2) ∈ (List.finRange 2).filter (fun a => a ∉ ([0] : List (Fin 2))) := by decide
  rw [dif_pos (show (1 : Fin 2) ∈ (rowDims N E C wf).sKept from h)]
  rfl

/-- An update index lands at operand element `(n, q)` exactly when its row's scatter index, read signed, is `n`
    and its column is `q`. -/
theorem resultIdx?_eq_some_iff (j : (⟨2, ![E, C]⟩ : Shape).Idx) (idx : IVec ⟨2, ![E, 1]⟩ w) (n : Fin N) (q : Fin C) :
    (rowDims N E C wf).resultIdx? j idx = some (ix2 n q) ↔
      (idx (ix2 (j 0) (0 : Fin 1))).toInt = (n.val : Int) ∧ j 1 = q := by
  have hs0 := start_zero wf j idx
  have hs1 := start_one wf j idx
  have hw0 := window_zero wf j
  have hw1 := window_one wf j
  have hn : n.val < N := n.isLt
  have hq : q.val < C := q.isLt
  have hj1 : (j 1).val < C := (j 1).isLt
  unfold ScatterDims.resultIdx?
  split_ifs with h
  · rw [Option.some.injEq]
    constructor
    · intro hf
      have h0 := congrArg (fun f => (f 0).val) hf
      have h1 := congrArg (fun f => (f 1).val) hf
      have b0 := (h 0).1
      simp only [hs0, hw0] at h0 b0
      simp only [hs1, hw1] at h1
      refine ⟨?_, Fin.ext ?_⟩
      · change ((idx (ix2 (j 0) (0 : Fin 1))).toInt + ((0 : Nat) : Int)).toNat = n.val at h0
        omega
      · change ((0 : Int) + ((j 1).val : Int)).toNat = q.val at h1
        omega
    · rintro ⟨ht, hjq⟩
      funext a
      refine Fin.ext ?_
      match a with
      | ⟨0, _⟩ =>
        show ((rowDims N E C wf).start j idx 0 + ((rowDims N E C wf).window j 0 : Int)).toNat = n.val
        rw [hs0, hw0, ht]; omega
      | ⟨1, _⟩ =>
        show ((rowDims N E C wf).start j idx 1 + ((rowDims N E C wf).window j 1 : Int)).toNat = q.val
        rw [hs1, hw1, ← hjq]; omega
  · constructor
    · intro hf; exact absurd hf (by simp)
    · rintro ⟨ht, hjq⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, hw0, ht]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, hw1]; omega

end

/-- THE ROW SCATTER READ AT `(n, q)`, at the ideal instance: the operand's element plus the sum, over ALL `E` update
    rows, of the update's element in column `q` when the row's scatter index (read signed) is `n`, and `0` when it is
    not. The landing condition does not depend on the column nor on the number of columns. -/
theorem scatterAdd_rows_apply {N E C w : Nat}
    (wf : ScatterDims.WF (⟨2, ![N, C]⟩ : Shape) ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32)
        (⟨[1], [0], [0], 1, wf⟩ : ScatterDims ⟨2, ![N, C]⟩ ⟨2, ![E, 1]⟩ ⟨2, ![E, C]⟩) x idx upd (ix2 n q)
      = x (ix2 n q) + ∑ e : Fin E,
          if (idx (ix2 e (0 : Fin 1))).toInt = (n.val : Int) then upd (ix2 e q) else 0 := by
  show Ideal.hostScatterAdd (rowDims N E C wf) x idx upd (ix2 n q) = _
  unfold Ideal.hostScatterAdd
  congr 1
  rw [Finset.sum_filter, sum_idx2]
  refine Finset.sum_congr rfl fun e _ => ?_
  have hc : ∀ b : Fin C, (if (rowDims N E C wf).resultIdx? (ix2 e b) idx = some (ix2 n q) then upd (ix2 e b) else 0)
      = if ((idx (ix2 e (0 : Fin 1))).toInt = (n.val : Int) ∧ b = q) then upd (ix2 e b) else 0 := fun b =>
    if_congr (resultIdx?_eq_some_iff wf (ix2 e b) idx n q) rfl rfl
  rw [Finset.sum_congr rfl fun b _ => hc b]
  by_cases ht : (idx (ix2 e (0 : Fin 1))).toInt = (n.val : Int)
  · simp only [ht, true_and, if_true]
    rw [Finset.sum_ite_eq' Finset.univ q (fun b => upd (ix2 e b)), if_pos (Finset.mem_univ q)]
  · simp only [ht, false_and, if_false, Finset.sum_const_zero]

/-- The same for ANY dimension numbers between these shapes whose four lists are a row scatter's (for a record stated
    field by field, each hypothesis is `rfl`). -/
theorem scatterAdd_rows_apply' {N E C w : Nat}
    (d : ScatterDims (⟨2, ![N, C]⟩ : Shape) ⟨2, ![E, 1]⟩ ⟨2, ![E, C]⟩)
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32) d x idx upd (ix2 n q)
      = x (ix2 n q) + ∑ e : Fin E,
          if (idx (ix2 e (0 : Fin 1))).toInt = (n.val : Int) then upd (ix2 e q) else 0 := by
  obtain ⟨uw, iw, sd, iv, wf⟩ := d
  simp only at h1 h2 h3 h4
  subst h1 h2 h3 h4
  exact scatterAdd_rows_apply wf x idx upd n q

end Idealize.ShloMosaic.ScatterRows

end
-- ==== Proof.KernelHost.lean ====
/-
  THE ARRAYS THE KERNEL'S REGION FINDS, READ AT AN INDEX (ideal instance: floats are extended reals).

  Before its one pipelined region the idealized kernel program runs host operations on its arguments; six of the
  region's operand arrays are results of those operations. With `x1 … x7` the argument arrays as launched
  (`arg1 … arg7` below) and `dst e` the destination row of edge `e` (row 1 of the `[2, E]` edge array `x3`, read as a
  signed word: `dstIdx`), this module states what each of the six holds when the region is entered:

    • `main_v13`  the segment sum of gathered rows, kept as ONE term `aggMu x1 x3` of the two arguments it reads
                  (`host_aggMu`): the scatter-add of the gather, not opened here;
    • `main_v32`  at `(0, q)`: `x4 (q, 0)` — a `[64, 1]` column laid as a row (`host_w1`);
    • `main_v29`  at `(0, q)`: `∑ k, max (x7 (k, 0)) 0 * x6 (q, k)` (`host_rp3`);
    • `main_v31`  at `(0, q)`: `∑ k, max (-(x7 (k, 0))) 0 * x6 (q, k)` (`host_rn3`);
    • `main_v19`  at `(n, 0)`: `∑ e, if dst e = n then max (x2 (e, 0)) 0 else 0` (`host_segPos`);
    • `main_v22`  at `(n, 0)`: `∑ e, if dst e = n then max (-(x2 (e, 0))) 0 else 0` (`host_segNeg`).

  Each is proved in two steps: the array equals the host operations' term over the launch contents (`V_main_v…`: the
  fold of the operation list computed at that buffer), and that term is read at the index by the library's lemmas
  for a transpose, a plain matrix product, a scalar broadcast, a pointwise maximum and an accumulating row scatter.
  The sums over the `3200000` edges and the `100000` rows stay symbolic throughout.
-/
import proofs.«179258_j13597866459920_2_alg».proof.Proof.Gen.KernelIdeal.Frame
import proofs.«179258_j13597866459920_2_alg».proof.Proof.LibRowOps
import proofs.«179258_j13597866459920_2_alg».proof.Proof.LibScatterRows
import Idealize.ShloMosaic.Lib.StableHlo.Run
import Idealize.ShloMosaic.Lib.ValueIdx
import Idealize.ShloMosaic.Lib.ValueLayout

noncomputable section

open scoped BigOperators

namespace Cert.Proof.KernelHost

open Cert.KernelIdeal Cert.KernelIdeal.Gen Idealize.ShloMosaic Idealize.ShloMosaic.ValueIdx
open Idealize.ShloMosaic.TcCoe

variable (m : (ℓ : Loc nD τ sig) → Buf (Elt Ideal) ℓ)

/-- The region-entry contents as the fold of the host operations over the launch contents. -/
macro "host_unfold" : tactic => `(tactic| (
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]))

/-! ## The arrays' terms -/

/-- The scatter indices of the three segment sums: row 1 of the `[2, E]` edge array, as an `[E, 1]` column. -/
def dstIdx (x3 : IVec S2x3200000 32) : IVec S3200000x1 32 :=
  broadcastInDim S3200000x1 ![0] bcast_S3200000_S3200000x1_0
    (shapeCast S3200000 (extractStridedSlice S1x3200000 ![1, 0] x3 slices_S2x3200000_S1x3200000_1_0)
      shapeCasts_S1x3200000_S3200000)

/-- The segment sum of the gathered rows: the rows of `x1` at the edges' sources (row 0 of the edge array, a negative
    index wrapped once by the row count), added into the zero `[N, 64]` array at the edges' destinations. -/
def aggMu (x1 : FVec Ideal S100000x64 .f32) (x3 : IVec S2x3200000 32) : FVec Ideal S100000x64 .f32 :=
  Host.scatterAdd scatter_S100000x64_S3200000x1_S3200000x64_1_0_0_1
    (broadcastInDim S100000x64 ![] bcast_S_S100000x64 (constant (F := Ideal) S_ .f32 0x00000000#32))
    (dstIdx x3)
    (Host.gather gather_S100000x64_S3200000x1_S3200000x64_1_0_n_n_0_1_164 x1
      (broadcastInDim S3200000x1 ![0] bcast_S3200000_S3200000x1_0
        (select
          (cmpi .slt
            (shapeCast S3200000 (extractStridedSlice S1x3200000 ![0, 0] x3 slices_S2x3200000_S1x3200000_0_0)
              shapeCasts_S1x3200000_S3200000)
            (broadcastInDim S3200000 ![] bcast_S_S3200000 (constantI S_ 32 0#32)))
          (addi
            (shapeCast S3200000 (extractStridedSlice S1x3200000 ![0, 0] x3 slices_S2x3200000_S1x3200000_0_0)
              shapeCasts_S1x3200000_S3200000)
            (broadcastInDim S3200000 ![] bcast_S_S3200000 (constantI S_ 32 100000#32)))
          (shapeCast S3200000 (extractStridedSlice S1x3200000 ![0, 0] x3 slices_S2x3200000_S1x3200000_0_0)
            shapeCasts_S1x3200000_S3200000))))

/-! ## The argument arrays as launched, at their literal array types

`argK m c` is `m ((c : Thread nD τ).loc main_argK)`, reducibly: the ascription only gives an element the type `EReal`
(or a 32-bit word) by name, so that a statement can add, multiply and compare elements. -/

/-- Argument 1 (`[100000, 64]` floats) as launched on core `c`. -/
abbrev arg1 (c : Dev nD) : FVec Ideal S100000x64 .f32 := m ((c : Thread nD τ).loc main_arg1)
/-- Argument 2 (`[3200000, 1]` floats) as launched on core `c`. -/
abbrev arg2 (c : Dev nD) : FVec Ideal S3200000x1 .f32 := m ((c : Thread nD τ).loc main_arg2)
/-- Argument 3 (`[2, 3200000]` 32-bit words) as launched on core `c`. -/
abbrev arg3 (c : Dev nD) : IVec S2x3200000 32 := m ((c : Thread nD τ).loc main_arg3)
/-- Argument 4 (`[64, 1]` floats) as launched on core `c`. -/
abbrev arg4 (c : Dev nD) : FVec Ideal S64x1 .f32 := m ((c : Thread nD τ).loc main_arg4)
/-- Argument 6 (`[64, 64]` floats) as launched on core `c`. -/
abbrev arg6 (c : Dev nD) : FVec Ideal S64x64 .f32 := m ((c : Thread nD τ).loc main_arg6)
/-- Argument 7 (`[64, 1]` floats) as launched on core `c`. -/
abbrev arg7 (c : Dev nD) : FVec Ideal S64x1 .f32 := m ((c : Thread nD τ).loc main_arg7)

/-! ## Each array as the host operations' term -/

set_option maxHeartbeats 1000000 in
/-- The segment sum of the gathered rows is the scatter-add of the gather, over the launch contents. -/
theorem V_main_v13 (c : Dev nD) :
    (V m c main_v13 : S100000x64.Idx → EReal)
      = aggMu (arg1 m c) (arg3 m c) := by
  host_unfold
  after_results <;> rfl

set_option maxHeartbeats 1000000 in
/-- The first weight row is argument 4 transposed. -/
theorem V_main_v32 (c : Dev nD) :
    (V m c main_v32 : S1x64.Idx → EReal)
      = transpose (α := EReal) S1x64 [1, 0] (arg4 m c) transposes_S64x1_S1x64_1_0 := by
  host_unfold
  after_results <;> rfl

set_option maxHeartbeats 1000000 in
/-- The positive part of argument 7, transposed, times argument 6 transposed. -/
theorem V_main_v29 (c : Dev nD) :
    (V m c main_v29 : S1x64.Idx → EReal)
      = Host.dotGeneral (F := Ideal) (φ₁ := .f32) (φ₂ := .f32) dot_S1x64_S64x64_S1x64_1_0_0_1_n_n none
          (transpose S1x64 [1, 0]
            (maximumf (F := Ideal) (φ := .f32) (arg7 m c)
              (broadcastInDim S64x1 ![] bcast_S_S64x1 (constant (F := Ideal) S_ .f32 0x00000000#32)))
            transposes_S64x1_S1x64_1_0)
          (transpose S64x64 [1, 0] (arg6 m c)
            transposes_S64x64_S64x64_1_0) := by
  host_unfold
  after_results <;> rfl

set_option maxHeartbeats 1000000 in
/-- The positive part of the negated argument 7, transposed, times argument 6 transposed. -/
theorem V_main_v31 (c : Dev nD) :
    (V m c main_v31 : S1x64.Idx → EReal)
      = Host.dotGeneral (F := Ideal) (φ₁ := .f32) (φ₂ := .f32) dot_S1x64_S64x64_S1x64_1_0_0_1_n_n none
          (transpose S1x64 [1, 0]
            (maximumf (F := Ideal) (φ := .f32) (Host.negf (F := Ideal) (φ := .f32) (arg7 m c))
              (broadcastInDim S64x1 ![] bcast_S_S64x1 (constant (F := Ideal) S_ .f32 0x00000000#32)))
            transposes_S64x1_S1x64_1_0)
          (transpose S64x64 [1, 0] (arg6 m c)
            transposes_S64x64_S64x64_1_0) := by
  host_unfold
  after_results <;> rfl

set_option maxHeartbeats 1000000 in
/-- The positive part of argument 2, scatter-added into the zero column at the edges' destinations. -/
theorem V_main_v19 (c : Dev nD) :
    (V m c main_v19 : S100000x1.Idx → EReal)
      = Host.scatterAdd (F := Ideal) (φ := .f32) scatter_S100000x1_S3200000x1_S3200000x1_1_0_0_1
          (broadcastInDim S100000x1 ![] bcast_S_S100000x1 (constant (F := Ideal) S_ .f32 0x00000000#32))
          (dstIdx (arg3 m c))
          (maximumf (F := Ideal) (φ := .f32) (arg2 m c)
            (broadcastInDim S3200000x1 ![] bcast_S_S3200000x1 (constant (F := Ideal) S_ .f32 0x00000000#32))) := by
  host_unfold
  after_results <;> rfl

set_option maxHeartbeats 1000000 in
/-- The positive part of the negated argument 2, scatter-added into the zero column at the edges' destinations. -/
theorem V_main_v22 (c : Dev nD) :
    (V m c main_v22 : S100000x1.Idx → EReal)
      = Host.scatterAdd (F := Ideal) (φ := .f32) scatter_S100000x1_S3200000x1_S3200000x1_1_0_0_1
          (broadcastInDim S100000x1 ![] bcast_S_S100000x1 (constant (F := Ideal) S_ .f32 0x00000000#32))
          (dstIdx (arg3 m c))
          (maximumf (F := Ideal) (φ := .f32) (Host.negf (F := Ideal) (φ := .f32) (arg2 m c))
            (broadcastInDim S3200000x1 ![] bcast_S_S3200000x1 (constant (F := Ideal) S_ .f32 0x00000000#32))) := by
  host_unfold
  after_results <;> rfl

/-! ## The arrays read at an index -/

/-- The zero scalar broadcast to any shape reads `0` everywhere. -/
theorem zero_bcast_apply {t : Shape} (h : S_.BroadcastsInDim t (![] : Fin 0 → Fin t.rank)) (j : t.Idx) :
    broadcastInDim t ![] h (constant (F := Ideal) S_ .f32 0x00000000#32) j = (0 : EReal) := by
  rw [RowOps.broadcastInDim_scalar_apply, constant_apply, Ideal.ofBits_zero_f32]

/-- The segment sum of the gathered rows, as one term of the two argument arrays it reads. -/
theorem host_aggMu (c : Dev nD) :
    (V m c main_v13 : S100000x64.Idx → EReal)
      = aggMu (arg1 m c) (arg3 m c) :=
  V_main_v13 m c

/-- The `[1, 64]` row of the first weight column: the `[64, 1]` argument transposed. -/
theorem host_w1 (c : Dev nD) (q : Fin 64) :
    (V m c main_v32 : S1x64.Idx → EReal) (ix2 (0 : Fin 1) q)
      = (arg4 m c) (ix2 q (0 : Fin 1)) :=
  (congrFun (V_main_v32 m c) (ix2 (0 : Fin 1) q)).trans
    (transpose_ix2_apply (arg4 m c) transposes_S64x1_S1x64_1_0 (0 : Fin 1) q)

/-- The positive part of the `[64, 1]` column, as a row, times the transposed `[64, 64]` matrix: at column `q` the
    sum over `k` of `max (x7 k) 0 * x6 (q, k)`. -/
theorem host_rp3 (c : Dev nD) (q : Fin 64) :
    (V m c main_v29 : S1x64.Idx → EReal) (ix2 (0 : Fin 1) q)
      = ∑ k : Fin 64, max ((arg7 m c) (ix2 k (0 : Fin 1))) 0
          * (arg6 m c) (ix2 q k) := by
  refine (congrFun (V_main_v29 m c) (ix2 (0 : Fin 1) q)).trans ?_
  refine (RowOps.dotGeneral_plain_apply dot_S1x64_S64x64_S1x64_1_0_0_1_n_n ⟨_, rfl⟩ none .single _ _ (0 : Fin 1) q).trans ?_
  refine Finset.sum_congr (M := EReal) rfl fun k _ => ?_
  rw [transpose_ix2_apply, transpose_ix2_apply, maximumf_apply, zero_bcast_apply]

/-- The same with the column negated first: the sum over `k` of `max (-(x7 k)) 0 * x6 (q, k)`. -/
theorem host_rn3 (c : Dev nD) (q : Fin 64) :
    (V m c main_v31 : S1x64.Idx → EReal) (ix2 (0 : Fin 1) q)
      = ∑ k : Fin 64, max (-((arg7 m c) (ix2 k (0 : Fin 1)))) 0
          * (arg6 m c) (ix2 q k) := by
  refine (congrFun (V_main_v31 m c) (ix2 (0 : Fin 1) q)).trans ?_
  refine (RowOps.dotGeneral_plain_apply dot_S1x64_S64x64_S1x64_1_0_0_1_n_n ⟨_, rfl⟩ none .single _ _ (0 : Fin 1) q).trans ?_
  refine Finset.sum_congr (M := EReal) rfl fun k _ => ?_
  rw [transpose_ix2_apply, transpose_ix2_apply, maximumf_apply, zero_bcast_apply]
  rfl

/-- The segment sum of the positive parts of the `[E, 1]` column: at row `n` the sum over the edges whose
    destination is `n` of `max (x2 e) 0`. -/
theorem host_segPos (c : Dev nD) (n : Fin 100000) :
    (V m c main_v19 : S100000x1.Idx → EReal) (ix2 n (0 : Fin 1))
      = ∑ e : Fin 3200000,
          if (dstIdx (arg3 m c) (ix2 e (0 : Fin 1))).toInt = (n.val : Int)
          then max ((arg2 m c) (ix2 e (0 : Fin 1))) 0 else 0 := by
  refine ((congrFun (V_main_v19 m c) (ix2 n (0 : Fin 1))).trans
    (ScatterRows.scatterAdd_rows_apply' scatter_S100000x1_S3200000x1_S3200000x1_1_0_0_1 rfl rfl rfl rfl _ _ _ n (0 : Fin 1))).trans ?_
  rw [zero_bcast_apply, zero_add]
  refine Finset.sum_congr (M := EReal) rfl fun e _ => ?_
  rw [maximumf_apply, zero_bcast_apply]

/-- The segment sum of the negative parts: at row `n` the sum over the edges whose destination is `n` of
    `max (-(x2 e)) 0`. -/
theorem host_segNeg (c : Dev nD) (n : Fin 100000) :
    (V m c main_v22 : S100000x1.Idx → EReal) (ix2 n (0 : Fin 1))
      = ∑ e : Fin 3200000,
          if (dstIdx (arg3 m c) (ix2 e (0 : Fin 1))).toInt = (n.val : Int)
          then max (-((arg2 m c) (ix2 e (0 : Fin 1)))) 0 else 0 := by
  refine ((congrFun (V_main_v22 m c) (ix2 n (0 : Fin 1))).trans
    (ScatterRows.scatterAdd_rows_apply' scatter_S100000x1_S3200000x1_S3200000x1_1_0_0_1 rfl rfl rfl rfl _ _ _ n (0 : Fin 1))).trans ?_
  rw [zero_bcast_apply, zero_add]
  refine Finset.sum_congr (M := EReal) rfl fun e _ => ?_
  rw [maximumf_apply, zero_bcast_apply]
  rfl

/-! ## The argument abbreviations, unfolded -/

@[simp] theorem arg1_eq (c : Dev nD) : arg1 m c = m ((c : Thread nD τ).loc main_arg1) := rfl
@[simp] theorem arg2_eq (c : Dev nD) : arg2 m c = m ((c : Thread nD τ).loc main_arg2) := rfl
@[simp] theorem arg3_eq (c : Dev nD) : arg3 m c = m ((c : Thread nD τ).loc main_arg3) := rfl
@[simp] theorem arg4_eq (c : Dev nD) : arg4 m c = m ((c : Thread nD τ).loc main_arg4) := rfl
@[simp] theorem arg6_eq (c : Dev nD) : arg6 m c = m ((c : Thread nD τ).loc main_arg6) := rfl
@[simp] theorem arg7_eq (c : Dev nD) : arg7 m c = m ((c : Thread nD τ).loc main_arg7) := rfl

end Cert.Proof.KernelHost

end
-- ==== Proof.RefValue.lean ====
/-
  The reference's result, read at one entry, is the row function of three part rows.

  For node n and output column p the reference computes
    out (n, p) = max (∑ q, max (∑ c, cat (n, c) * Wc0 (q, c)) 0 * Wc1 (p, q)) 0,
  where cat (n, ·) joins three rows of 64 entries: part j at column c % 64 for c / 64 = j. Each part is a product of a
  per-node row with a transposed weight, and a transposed weight is read back at the weight itself,
  (Wᵀ) (k, q) = W (q, k):
    part 0 (n, q) = ∑ k < 1,  x (n, k) * W1 (q, k),
    part 1 (n, q) = ∑ k < 64, A (n, k) * W2 (q, k),
    part 2 (n, q) = ∑ k < 64, B (n, k) * W3 (q, k),
  with A and B the two scattered sums, which are left unopened here. Clipping below at zero is the maximum with a
  broadcast zero constant. The node index n stays symbolic throughout: the only case split is on the three-valued
  part number.
-/
import proofs.«179258_j13597866459920_2_alg».proof.Proof.Gen.ReferenceIdeal.Read
import proofs.«179258_j13597866459920_2_alg».proof.Proof.Spec
import proofs.«179258_j13597866459920_2_alg».proof.Proof.LibRowOps

noncomputable section
open scoped BigOperators

namespace Cert.Proof.RefValue
open Cert.ReferenceIdeal Cert.ReferenceIdeal.Read Idealize.ShloMosaic Idealize.ShloMosaic.ValueIdx Idealize.ShloMosaic.RowOps Cert.Proof.Spec

/-- The f32 pattern of all zero bits denotes the extended real zero. -/
theorem zero_f32 : Ideal.ofBits .f32 0x00000000#32 = (0 : EReal) := by
  simp [Ideal.ofBits, Ideal.ieee]

/-- The zero the first clipping compares against, broadcast to the result's shape, is zero at every index. -/
theorem call1_zero (i : S100000x64.Idx) : val_main_call1_v0 (F := Ideal) i = 0 := by
  rw [val_main_call1_v0_apply, val_main_call1_cst_apply]; exact zero_f32

/-- The zero the second clipping compares against is zero at every index. -/
theorem call2_zero (i : S100000x64.Idx) : val_main_call2_v0 (F := Ideal) i = 0 := by
  rw [val_main_call2_v0_apply, val_main_call2_cst_apply]; exact zero_f32

/-- First part: x (n, ·) against the transposed 64×1 weight. -/
theorem v5_row (x0 : (⟨S100000x1, .f32⟩ : BufTy).Contents (Elt Ideal)) (x4 : (⟨S64x1, .f32⟩ : BufTy).Contents (Elt Ideal)) (n : Fin 100000) (q : Fin 64) :
    val_main_v5 (F := Ideal) x0 x4 (ix2 n q) = ∑ k : Fin 1, x0 (ix2 n k) * x4 (ix2 q k) := by
  rw [val_main_v5_apply]
  refine Finset.sum_congr rfl fun k _ => ?_
  rw [val_main_v4_apply]
  have e1 : lidx_main_v5 (ix2 n q) k = ix2 n k := funext fun a => match a with | ⟨0, _⟩ => rfl | ⟨1, _⟩ => rfl
  have e2 : idx_main_v4 (ridx_main_v5 (ix2 n q) k) = ix2 q k := funext fun a => match a with | ⟨0, _⟩ => rfl | ⟨1, _⟩ => rfl
  rw [e1, e2]

/-- Second part: the first scattered sum's row against the transposed 64×64 weight. The scattered sum stays as it is. -/
theorem v17_row (x1 : (⟨S100000x64, .f32⟩ : BufTy).Contents (Elt Ideal)) (x3 : (⟨S2x3200000, .i32⟩ : BufTy).Contents (Elt Ideal)) (x5 : (⟨S64x64, .f32⟩ : BufTy).Contents (Elt Ideal)) (n : Fin 100000) (q : Fin 64) :
    val_main_v17 (F := Ideal) x1 x3 x5 (ix2 n q)
      = ∑ k : Fin 64, (val_main_v15 (F := Ideal) x1 x3) (ix2 n k) * x5 (ix2 q k) := by
  rw [val_main_v17_apply]
  refine Finset.sum_congr rfl fun k _ => ?_
  rw [val_main_v16_apply]
  have e1 : lidx_main_v17 (ix2 n q) k = ix2 n k := funext fun a => match a with | ⟨0, _⟩ => rfl | ⟨1, _⟩ => rfl
  have e2 : idx_main_v16 (ridx_main_v17 (ix2 n q) k) = ix2 q k := funext fun a => match a with | ⟨0, _⟩ => rfl | ⟨1, _⟩ => rfl
  rw [e1, e2]

/-- Third part: the second scattered sum's row against the transposed 64×64 weight. The scattered sum stays as it is. -/
theorem v25_row (x2 : (⟨S3200000x1, .f32⟩ : BufTy).Contents (Elt Ideal)) (x3 : (⟨S2x3200000, .i32⟩ : BufTy).Contents (Elt Ideal)) (x6 : (⟨S64x64, .f32⟩ : BufTy).Contents (Elt Ideal)) (x7 : (⟨S64x1, .f32⟩ : BufTy).Contents (Elt Ideal)) (n : Fin 100000) (q : Fin 64) :
    val_main_v25 (F := Ideal) x2 x3 x6 x7 (ix2 n q)
      = ∑ k : Fin 64, (val_main_v23 (F := Ideal) x2 x3 x7) (ix2 n k) * x6 (ix2 q k) := by
  rw [val_main_v25_apply]
  refine Finset.sum_congr rfl fun k _ => ?_
  rw [val_main_v24_apply]
  have e1 : lidx_main_v25 (ix2 n q) k = ix2 n k := funext fun a => match a with | ⟨0, _⟩ => rfl | ⟨1, _⟩ => rfl
  have e2 : idx_main_v24 (ridx_main_v25 (ix2 n q) k) = ix2 q k := funext fun a => match a with | ⟨0, _⟩ => rfl | ⟨1, _⟩ => rfl
  rw [e1, e2]

/-- One of three functions chosen by a three-valued number, read at a point, against one of three rows chosen by the
    same number. Functions and rows are arbitrary here, so the case split never looks inside them. -/
theorem pick3 {I : Type} (u0 u1 u2 : I → EReal) (g0 g1 g2 : Fin 64 → EReal) (i : I) (q : Fin 64)
    (h0 : u0 i = g0 q) (h1 : u1 i = g1 q) (h2 : u2 i = g2 q) (j : Fin 3) :
    (![u0, u1, u2] j) i = (![g0, g1, g2] j) q := by
  match j with
  | ⟨0, _⟩ => exact h0
  | ⟨1, _⟩ => exact h1
  | ⟨2, _⟩ => exact h2

/-- Piece `j` of the three joined arrays, read at (n, q), is row `j` of the three part rows at `q`. -/
theorem parts_row (x0 : (⟨S100000x1, .f32⟩ : BufTy).Contents (Elt Ideal)) (x1 : (⟨S100000x64, .f32⟩ : BufTy).Contents (Elt Ideal)) (x2 : (⟨S3200000x1, .f32⟩ : BufTy).Contents (Elt Ideal)) (x3 : (⟨S2x3200000, .i32⟩ : BufTy).Contents (Elt Ideal)) (x4 : (⟨S64x1, .f32⟩ : BufTy).Contents (Elt Ideal)) (x5 : (⟨S64x64, .f32⟩ : BufTy).Contents (Elt Ideal)) (x6 : (⟨S64x64, .f32⟩ : BufTy).Contents (Elt Ideal)) (x7 : (⟨S64x1, .f32⟩ : BufTy).Contents (Elt Ideal)) (n : Fin 100000) (j : Fin 3) (q : Fin 64) :
    (![val_main_v5 (F := Ideal) x0 x4, val_main_v17 (F := Ideal) x1 x3 x5, val_main_v25 (F := Ideal) x2 x3 x6 x7] j) (ix2 n q)
      = (![fun q => ∑ k : Fin 1, x0 (ix2 n k) * x4 (ix2 q k),
           fun q => ∑ k : Fin 64, (val_main_v15 (F := Ideal) x1 x3) (ix2 n k) * x5 (ix2 q k),
           fun q => ∑ k : Fin 64, (val_main_v23 (F := Ideal) x2 x3 x7) (ix2 n k) * x6 (ix2 q k)] j) q :=
  pick3 (val_main_v5 (F := Ideal) x0 x4) (val_main_v17 (F := Ideal) x1 x3 x5) (val_main_v25 (F := Ideal) x2 x3 x6 x7)
    (fun q => ∑ k : Fin 1, x0 (ix2 n k) * x4 (ix2 q k))
    (fun q => ∑ k : Fin 64, (val_main_v15 (F := Ideal) x1 x3) (ix2 n k) * x5 (ix2 q k))
    (fun q => ∑ k : Fin 64, (val_main_v23 (F := Ideal) x2 x3 x7) (ix2 n k) * x6 (ix2 q k))
    (ix2 n q) q (v5_row x0 x4 n q) (v17_row x1 x3 x5 n q) (v25_row x2 x3 x6 x7 n q) j

/-- The joined 192-wide row at (n, c) is entry `c % 64` of part `c / 64`. -/
theorem v26_row (x0 : (⟨S100000x1, .f32⟩ : BufTy).Contents (Elt Ideal)) (x1 : (⟨S100000x64, .f32⟩ : BufTy).Contents (Elt Ideal)) (x2 : (⟨S3200000x1, .f32⟩ : BufTy).Contents (Elt Ideal)) (x3 : (⟨S2x3200000, .i32⟩ : BufTy).Contents (Elt Ideal)) (x4 : (⟨S64x1, .f32⟩ : BufTy).Contents (Elt Ideal)) (x5 : (⟨S64x64, .f32⟩ : BufTy).Contents (Elt Ideal)) (x6 : (⟨S64x64, .f32⟩ : BufTy).Contents (Elt Ideal)) (x7 : (⟨S64x1, .f32⟩ : BufTy).Contents (Elt Ideal)) (n : Fin 100000) (c : Fin 192) :
    val_main_v26 (F := Ideal) x0 x1 x2 x3 x4 x5 x6 x7 (ix2 n c)
      = cat3 ![fun q => ∑ k : Fin 1, x0 (ix2 n k) * x4 (ix2 q k),
          fun q => ∑ k : Fin 64, (val_main_v15 (F := Ideal) x1 x3) (ix2 n k) * x5 (ix2 q k),
          fun q => ∑ k : Fin 64, (val_main_v23 (F := Ideal) x2 x3 x7) (ix2 n k) * x6 (ix2 q k)] c := by
  unfold val_main_v26 cat3
  refine (concat3_apply _ _ _ _ n c).trans ?_
  exact parts_row x0 x1 x2 x3 x4 x5 x6 x7 n _ _

/-- First dense layer before clipping: the joined row against the transposed 64×192 weight, (Wᵀ)(c, q) = W (q, c). -/
theorem v28_row (x0 : (⟨S100000x1, .f32⟩ : BufTy).Contents (Elt Ideal)) (x1 : (⟨S100000x64, .f32⟩ : BufTy).Contents (Elt Ideal)) (x2 : (⟨S3200000x1, .f32⟩ : BufTy).Contents (Elt Ideal)) (x3 : (⟨S2x3200000, .i32⟩ : BufTy).Contents (Elt Ideal)) (x4 : (⟨S64x1, .f32⟩ : BufTy).Contents (Elt Ideal)) (x5 : (⟨S64x64, .f32⟩ : BufTy).Contents (Elt Ideal)) (x6 : (⟨S64x64, .f32⟩ : BufTy).Contents (Elt Ideal)) (x7 : (⟨S64x1, .f32⟩ : BufTy).Contents (Elt Ideal)) (x8 : (⟨S64x192, .f32⟩ : BufTy).Contents (Elt Ideal)) (n : Fin 100000) (q : Fin 64) :
    val_main_v28 (F := Ideal) x0 x1 x2 x3 x4 x5 x6 x7 x8 (ix2 n q)
      = ∑ c : Fin 192, cat3 ![fun q => ∑ k : Fin 1, x0 (ix2 n k) * x4 (ix2 q k),
          fun q => ∑ k : Fin 64, (val_main_v15 (F := Ideal) x1 x3) (ix2 n k) * x5 (ix2 q k),
          fun q => ∑ k : Fin 64, (val_main_v23 (F := Ideal) x2 x3 x7) (ix2 n k) * x6 (ix2 q k)] c * x8 (ix2 q c) := by
  rw [val_main_v28_apply]
  refine Finset.sum_congr rfl fun c _ => ?_
  rw [val_main_v27_apply]
  have e1 : lidx_main_v28 (ix2 n q) c = ix2 n c := funext fun a => match a with | ⟨0, _⟩ => rfl | ⟨1, _⟩ => rfl
  have e2 : idx_main_v27 (ridx_main_v28 (ix2 n q) c) = ix2 q c := funext fun a => match a with | ⟨0, _⟩ => rfl | ⟨1, _⟩ => rfl
  rw [e1, e2, v26_row]

/-- The reference's result at (n, p) is the row function of the three parts: two dense layers, each clipped below at
    zero, on the joined row. The two scattered sums are left as the opaque terms they are. -/
theorem ref_row (x0 : (⟨S100000x1, .f32⟩ : BufTy).Contents (Elt Ideal)) (x1 : (⟨S100000x64, .f32⟩ : BufTy).Contents (Elt Ideal)) (x2 : (⟨S3200000x1, .f32⟩ : BufTy).Contents (Elt Ideal)) (x3 : (⟨S2x3200000, .i32⟩ : BufTy).Contents (Elt Ideal)) (x4 : (⟨S64x1, .f32⟩ : BufTy).Contents (Elt Ideal)) (x5 : (⟨S64x64, .f32⟩ : BufTy).Contents (Elt Ideal)) (x6 : (⟨S64x64, .f32⟩ : BufTy).Contents (Elt Ideal)) (x7 : (⟨S64x1, .f32⟩ : BufTy).Contents (Elt Ideal)) (x8 : (⟨S64x192, .f32⟩ : BufTy).Contents (Elt Ideal)) (x9 : (⟨S64x64, .f32⟩ : BufTy).Contents (Elt Ideal)) (n : Fin 100000) (p : Fin 64) :
    val_main_v32 (F := Ideal) x0 x1 x2 x3 x4 x5 x6 x7 x8 x9 (ix2 n p)
      = mlpRow (fun q c => x8 (ix2 q c)) (fun p q => x9 (ix2 p q))
          ![fun q => ∑ k : Fin 1, x0 (ix2 n k) * x4 (ix2 q k),
          fun q => ∑ k : Fin 64, (val_main_v15 (F := Ideal) x1 x3) (ix2 n k) * x5 (ix2 q k),
          fun q => ∑ k : Fin 64, (val_main_v23 (F := Ideal) x2 x3 x7) (ix2 n k) * x6 (ix2 q k)] p := by
  rw [val_main_v32_apply, Ideal.maximumf_def, call2_zero, val_main_v31_apply]
  unfold mlpRow
  refine congrArg (fun t => max t 0) ?_
  refine Finset.sum_congr rfl fun q _ => ?_
  rw [val_main_v30_apply]
  have e1 : lidx_main_v31 (ix2 n p) q = ix2 n q := funext fun a => match a with | ⟨0, _⟩ => rfl | ⟨1, _⟩ => rfl
  have e2 : idx_main_v30 (ridx_main_v31 (ix2 n p) q) = ix2 p q := funext fun a => match a with | ⟨0, _⟩ => rfl | ⟨1, _⟩ => rfl
  rw [e1, e2, val_main_v29_apply, Ideal.maximumf_def, call1_zero, v28_row]

end Cert.Proof.RefValue
end
-- ==== Proof.Bridge.lean ====
/-
  The two programs' rows are the same rows.

  Both results are the two dense layers on three joined rows per node (the kernel's by `KernelValue`, the reference's
  by `RefValue`). Row one: the reference contracts over an axis of extent one, which is the kernel's product. Row two:
  both contract the same aggregated features. Row three: the reference scatters, per edge `e` landing on the node and
  per column `k`, `max (w e * W4 k) 0` and contracts the sums with `W3`; the kernel scatters `max (w e) 0` and
  `max (-w e) 0` and scales two rows contracted once; they agree by `Spec.fold_ereal`, for which the weights `w`, `W4`
  and `W3` have to be real numbers — the precondition.
-/
import proofs.«179258_j13597866459920_2_alg».proof.Proof.Gen.ReferenceIdeal.Read
import proofs.«179258_j13597866459920_2_alg».proof.Proof.LibScatterRows
import proofs.«179258_j13597866459920_2_alg».proof.Proof.LibRowOps
import proofs.«179258_j13597866459920_2_alg».proof.Proof.Spec

noncomputable section

open scoped BigOperators

namespace Cert.Proof.Bridge

open Idealize.ShloMosaic Idealize.ShloMosaic.ValueIdx Idealize.ShloMosaic.RowOps Cert.Proof.Spec

section Reference

open Cert.ReferenceIdeal Cert.ReferenceIdeal.Read

/-- The reference's edge scatter at `(n, k)`: over the edges landing on node `n`, the sum of `max (w e * W4 k) 0`. -/
theorem ref_aggw (x2 : (⟨S3200000x1, .f32⟩ : BufTy).Contents (Elt Ideal)) (x3 : (⟨S2x3200000, .i32⟩ : BufTy).Contents (Elt Ideal))
    (x7 : (⟨S64x1, .f32⟩ : BufTy).Contents (Elt Ideal)) (n : Fin 100000) (k : Fin 64) :
    val_main_v23 (F := Ideal) x2 x3 x7 (ix2 n k)
      = ∑ e : Fin 3200000, if (val_main_v22 (F := Ideal) x3 (ix2 e (0 : Fin 1))).toInt = (n.val : Int)
          then max (x2 (ix2 e (0 : Fin 1)) * x7 (ix2 k (0 : Fin 1))) 0 else 0 := by
  unfold val_main_v23
  rw [ScatterRows.scatterAdd_rows_apply' scatter_S100000x64_S3200000x1_S3200000x64_1_0_0_1 rfl rfl rfl rfl]
  have h0 : val_main_v21 (F := Ideal) (ix2 n k) = 0 := by
    rw [val_main_v21_apply, val_main_cst_1_apply]; exact Ideal.ofBits_zero_f32
  rw [h0, zero_add]
  refine Finset.sum_congr rfl fun e _ => ?_
  refine if_congr Iff.rfl ?_ rfl
  rw [val_main_v20_apply, val_main_v19_apply, val_main_call0_v0_apply, val_main_call0_cst_apply, Fin.sum_univ_one,
    val_main_v18_apply]
  show max (x2 _ * x7 _) (Ideal.ofBits .f32 0x00000000#32) = _
  rw [Ideal.ofBits_zero_f32]
  have e1 : lidx_main_v19 (ix2 e k) (0 : Fin 1) = ix2 e (0 : Fin 1) :=
    funext fun a => match a with | ⟨0, _⟩ => rfl | ⟨1, _⟩ => rfl
  have e2 : idx_main_v18 (ridx_main_v19 (ix2 e k) (0 : Fin 1)) = ix2 k (0 : Fin 1) :=
    funext fun a => match a with | ⟨0, _⟩ => rfl | ⟨1, _⟩ => rfl
  rw [e1, e2]

/-- Row one: a contraction over an axis of extent one is the product. -/
theorem row1_eq (x0 : (⟨S100000x1, .f32⟩ : BufTy).Contents (Elt Ideal)) (x4 : (⟨S64x1, .f32⟩ : BufTy).Contents (Elt Ideal))
    (n : Fin 100000) (q : Fin 64) :
    ∑ k : Fin 1, x0 (ix2 n k) * x4 (ix2 q k) = x0 (ix2 n (0 : Fin 1)) * x4 (ix2 q (0 : Fin 1)) :=
  Fin.sum_univ_one _

/-- Row three: the reference's scattered `max (w e * W4 k) 0`, contracted with `W3`, is the two edge sums scaling the
    two rows contracted once — for real weights. -/
theorem row3_eq (x2 : (⟨S3200000x1, .f32⟩ : BufTy).Contents (Elt Ideal)) (x3 : (⟨S2x3200000, .i32⟩ : BufTy).Contents (Elt Ideal))
    (x6 : (⟨S64x64, .f32⟩ : BufTy).Contents (Elt Ideal)) (x7 : (⟨S64x1, .f32⟩ : BufTy).Contents (Elt Ideal))
    (h2 : ∀ i, ∃ r : ℝ, x2 i = (r : EReal)) (h6 : ∀ i, ∃ r : ℝ, x6 i = (r : EReal)) (h7 : ∀ i, ∃ r : ℝ, x7 i = (r : EReal))
    (n : Fin 100000) (q : Fin 64) :
    ∑ k : Fin 64, val_main_v23 (F := Ideal) x2 x3 x7 (ix2 n k) * x6 (ix2 q k)
      = (∑ e : Fin 3200000, if (val_main_v22 (F := Ideal) x3 (ix2 e (0 : Fin 1))).toInt = (n.val : Int)
            then max (x2 (ix2 e (0 : Fin 1))) 0 else 0) * (∑ k : Fin 64, max (x7 (ix2 k (0 : Fin 1))) 0 * x6 (ix2 q k))
        + (∑ e : Fin 3200000, if (val_main_v22 (F := Ideal) x3 (ix2 e (0 : Fin 1))).toInt = (n.val : Int)
            then max (-(x2 (ix2 e (0 : Fin 1)))) 0 else 0) * (∑ k : Fin 64, max (-(x7 (ix2 k (0 : Fin 1)))) 0 * x6 (ix2 q k)) := by
  simp only [ref_aggw]
  exact fold_ereal (fun e : Fin 3200000 => (val_main_v22 (F := Ideal) x3 (ix2 e (0 : Fin 1))).toInt = (n.val : Int))
    (fun e => x2 (ix2 e (0 : Fin 1))) (fun k => x7 (ix2 k (0 : Fin 1))) (fun k => x6 (ix2 q k))
    (fun e => h2 _) (fun k => h7 _) (fun k => h6 _)

end Reference

end Cert.Proof.Bridge

end
-- ==== Proof.Equal.lean ====
/-
  The kernel's result array is the reference's result.

  The kernel's array is `KernelValue.G` of the ten arrays its region finds; six of them the host lines before the region
  computed (`KernelHost`): the first weight row transposed, the aggregated features, the two edge sums of the clipped
  weights and the two rows contracted once. The reference's array, read at an index, is the same two dense layers on
  three joined rows (`RefValue.ref_row`). Row by row (`Bridge`): the first rows agree because a contraction over an
  axis of extent one is a product; the second because both programs aggregate the features by the same gather and
  scatter; the third by the law of `Spec`, which needs the edge weights and the two small weight matrices to be real
  numbers.
-/
import proofs.«179258_j13597866459920_2_alg».proof.Proof.KernelValue
import proofs.«179258_j13597866459920_2_alg».proof.Proof.KernelHost
import proofs.«179258_j13597866459920_2_alg».proof.Proof.RefValue
import proofs.«179258_j13597866459920_2_alg».proof.Proof.Bridge

noncomputable section

open scoped BigOperators

namespace Cert.Proof.Equal

open Cert.KernelIdeal Cert.KernelIdeal.Gen Idealize.ShloMosaic Idealize.ShloMosaic.TcCoe Idealize.SL.Sem
open Idealize.ShloMosaic.ValueIdx Cert.Proof.Spec Cert.Proof.KernelPayload Cert.Proof.KernelValue Cert.Proof.KernelHost
open Cert.Proof.Bridge

/-- Two dense layers on joined rows agree when the layers' matrices and the three rows do. -/
theorem mlpRow_congr {W0 W0' : Fin 64 → Fin 192 → EReal} {W1 W1' : Fin 64 → Fin 64 → EReal}
    {f0 f0' f1 f1' f2 f2' : Fin 64 → EReal} (h8 : W0 = W0') (h9 : W1 = W1') (h0 : f0 = f0') (h1 : f1 = f1')
    (h2 : f2 = f2') (p : Fin 64) : mlpRow W0 W1 ![f0, f1, f2] p = mlpRow W0' W1' ![f0', f1', f2'] p := by
  subst h8 h9 h0 h1 h2; rfl

variable (m : (ℓ : Loc nD τ sig) → Buf (Elt Ideal) ℓ)

/-- The two programs aggregate the features by the same operations on the same arrays. -/
theorem aggMu_eq (x1 : FVec Ideal S100000x64 .f32) (x3 : IVec S2x3200000 32) :
    aggMu x1 x3 = Cert.ReferenceIdeal.Read.val_main_v15 (F := Ideal) x1 x3 := rfl

/-- The two programs read the edges' target nodes by the same operations. -/
theorem dstIdx_eq (x3 : IVec S2x3200000 32) :
    dstIdx x3 = Cert.ReferenceIdeal.Read.val_main_v22 (F := Ideal) x3 := rfl

/-- THE RESULT ARRAYS AGREE, when the edge weights (argument 2) and the two small weight matrices (arguments 6
    and 7) hold real numbers. -/
theorem result_eq (c : Dev nD)
    (h2 : ∀ i, ∃ r : ℝ, (m ((c : Thread nD τ).loc main_arg2)) i = (r : EReal)) (h6 : ∀ i, ∃ r : ℝ, (m ((c : Thread nD τ).loc main_arg6)) i = (r : EReal))
    (h7 : ∀ i, ∃ r : ℝ, (m ((c : Thread nD τ).loc main_arg7)) i = (r : EReal)) :
    GV m c = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨n, p, rfl⟩ : ∃ (n : Fin 100000) (p : Fin 64), i = ix2 n p := ⟨i 0, i 1, eq_ix2 i⟩
  rw [Cert.Proof.RefValue.ref_row]
  have a0 : (V m c (Pipeline.arrRef spec0 0)) = (m ((c : Thread nD τ).loc main_arg0)) := V_main_arg0 m c
  have a5 : (V m c (Pipeline.arrRef spec0 5)) = (m ((c : Thread nD τ).loc main_arg5)) := V_main_arg5 m c
  have a8 : (V m c (Pipeline.arrRef spec0 8)) = (m ((c : Thread nD τ).loc main_arg8)) := V_main_arg8 m c
  have a9 : (V m c (Pipeline.arrRef spec0 9)) = (m ((c : Thread nD τ).loc main_arg9)) := V_main_arg9 m c
  have a1 : (V m c (Pipeline.arrRef spec0 1)) = Cert.ReferenceIdeal.Read.val_main_v15 (F := Ideal) (m ((c : Thread nD τ).loc main_arg1)) (m ((c : Thread nD τ).loc main_arg3)) :=
    (host_aggMu m c).trans (aggMu_eq _ _)
  refine mlpRow_congr (funext fun q => funext fun cc => congrFun a8 _) (funext fun p' => funext fun q => congrFun a9 _)
    (funext fun q => ?_) (funext fun q => ?_) (funext fun q => ?_) p
  · exact (congrArg₂ (fun x y : EReal => x * y) (congrFun a0 _) (host_w1 m c q)).trans
      (row1_eq (m ((c : Thread nD τ).loc main_arg0)) (m ((c : Thread nD τ).loc main_arg4)) n q).symm
  · exact Finset.sum_congr rfl fun k _ => congrArg₂ (fun x y : EReal => x * y) (congrFun a1 _) (congrFun a5 _)
  · refine (congrArg₂ (fun x y : EReal => x + y)
      (congrArg₂ (fun x y : EReal => x * y) (host_segPos m c n) (host_rp3 m c q))
      (congrArg₂ (fun x y : EReal => x * y) (host_segNeg m c n) (host_rn3 m c q))).trans ?_
    rw [dstIdx_eq]
    exact (row3_eq (m ((c : Thread nD τ).loc main_arg2)) (m ((c : Thread nD τ).loc main_arg3)) (m ((c : Thread nD τ).loc main_arg6)) (m ((c : Thread nD τ).loc main_arg7)) h2 h6 h7 n q).symm

end Cert.Proof.Equal

end
-- ==== Proof.lean ====
/-
  The kernel and its reference compute the same array over the extended reals.

  Both programs compute, for each of 100000 nodes `n`, a row of 64 numbers: two dense layers, each clipped below at
  zero, on a joined row of 192 entries made of three rows of 64:
    part one    x n * W1 q,
    part two    ∑ k, agg n k * W2 q k,      agg = the features of the edges' sources summed at the edges' targets,
    part three  ∑ k, (∑ over edges e landing on n of max (w e * W4 k) 0) * W3 q k.
  The reference computes exactly this with whole-array operations. The kernel computes the aggregation `agg` by the same
  gather and scatter, replaces part three by
    (∑ over edges e landing on n of max (w e) 0) * (∑ k, max (W4 k) 0 * W3 q k)
      + (∑ over edges e landing on n of max (-w e) 0) * (∑ k, max (-W4 k) 0 * W3 q k),
  whose two edge sums and two small contractions it computes before its pipelined region, and runs the two dense
  layers in the region, 4000 nodes per grid point, 25 points. A change of float format is the identity on extended
  reals and a matrix product is a plain sum there, so what is left to show is
    * that entry `(a, p)` of a block depends on row `a` of the node blocks alone (`KernelPayload`), that the 25 blocks
      are the restrictions of one whole-array function and cover the array (`KernelValue`), and what the host lines
      before the region computed (`KernelHost`);
    * that the reference's result at an index is the same two layers on three rows (`RefValue`);
    * that the two third parts agree: for real numbers max (x * y) 0 = max x 0 * max y 0 + max (-x) 0 * max (-y) 0,
      and finite sums of reals distribute (`Spec`, `Bridge`, `Equal`). Distributivity fails at the infinities, so this
      step uses the precondition: the edge weights, `W3` and `W4` are finite (`Finite`).
  The three programs' runs terminate with their arguments unchanged by the generated frames (the reference's by its
  generated run), and the idealization rewrote nothing, so its conjunct is trivial.
-/
import proofs.«179258_j13597866459920_2_alg».proof.Defs
import proofs.«179258_j13597866459920_2_alg».proof.Proof.Gen.Kernel
import proofs.«179258_j13597866459920_2_alg».proof.Proof.Gen.Kernel.Skeleton
import proofs.«179258_j13597866459920_2_alg».proof.Proof.Gen.Kernel.Launch
import proofs.«179258_j13597866459920_2_alg».proof.Proof.Gen.Kernel.Points
import proofs.«179258_j13597866459920_2_alg».proof.Proof.Gen.Kernel.Frame
import proofs.«179258_j13597866459920_2_alg».proof.Proof.Gen.KernelIdeal
import proofs.«179258_j13597866459920_2_alg».proof.Proof.Gen.KernelIdeal.Skeleton
import proofs.«179258_j13597866459920_2_alg».proof.Proof.Gen.KernelIdeal.Launch
import proofs.«179258_j13597866459920_2_alg».proof.Proof.Gen.KernelIdeal.Points
import proofs.«179258_j13597866459920_2_alg».proof.Proof.Gen.KernelIdeal.Frame
import proofs.«179258_j13597866459920_2_alg».proof.Proof.Gen.ReferenceIdeal
import proofs.«179258_j13597866459920_2_alg».proof.Proof.Gen.Pre_finite_inputs
import proofs.«179258_j13597866459920_2_alg».proof.Proof.Gen.KernelIdeal.Value
import proofs.«179258_j13597866459920_2_alg».proof.Proof.Gen.ReferenceIdeal.Run
import proofs.«179258_j13597866459920_2_alg».proof.Proof.Gen.ReferenceIdeal.Read
import proofs.«179258_j13597866459920_2_alg».proof.Proof.Finite
import proofs.«179258_j13597866459920_2_alg».proof.Proof.Equal
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, of finite float inputs, the two idealized programs end with equal result
    arrays: the kernel's at `KernelValue.G` of what its region finds, the reference's at its composed term, which are
    one function of the arguments (`Equal.result_eq`). -/
theorem algebraic : Cert.algebraic_KernelIdeal_ReferenceIdeal := by
  intro m ρ m' ρ' hpre hagree
  refine ⟨fun c => Cert.Proof.KernelValue.GV m c, Cert.Proof.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  rw [g0, g1, g2, g3, g4, g5, g6, g7, g8, g9]
  obtain ⟨h2, h6, h7⟩ := Cert.Proof.Finite.reals_of_pre _ _ _ _ _ _ _ _ _ _ (hpre c)
  exact (Cert.ReferenceIdeal.Read.val_main_v32_eq _ _ _ _ _ _ _ _ _ _).trans
    (Cert.Proof.Equal.result_eq m c h2 h6 h7).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
